-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x16 : Shape := ⟨2, ![65536, 16]⟩
abbrev S256x64 : Shape := ⟨2, ![256, 64]⟩
abbrev S256 : Shape := ⟨1, ![256]⟩
abbrev S256x256 : Shape := ⟨2, ![256, 256]⟩
abbrev S16x256 : Shape := ⟨2, ![16, 256]⟩
abbrev S16 : Shape := ⟨1, ![16]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x16 : S_.BroadcastsInDim S65536x16 (![] : Fin 0 → Fin S65536x16.rank)
  reducesTo_S65536x16_S_d0_1 : S65536x16.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_arg8 : FVec F S16x256 .f32) (main_arg9 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x256 .f32 := Host.absf main_arg8
  let main_cst_14 : FVec F S_ .f32 := constant S_ .f32 0x7F800000#32
  let main_v40 : FVec F S16x256 .f32 := broadcastInDim S16x256 ![] bcast_S_S16x256 main_cst_14
  let main_v41 : IVec S16x256 1 := cmpf .olt main_v39 main_v40
  let main_c_15 : IVec S_ 1 := constantI S_ 1 1#1
  let main_v42 : IVec S_ 1 := (fun x v => Host.reduce IntOp.andi x v reducesTo_S16x256_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S16x256 .f32) (main_arg7 : FVec F S16 .f32) (main_arg8 : FVec F S16x256 .f32) (main_arg9 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S16x256 .f32 := Host.absf main_arg6
  let main_cst_10 : FVec F S_ .f32 := constant S_ .f32 0x7F800000#32
  let main_v30 : FVec F S16x256 .f32 := broadcastInDim S16x256 ![] bcast_S_S16x256 main_cst_10
  let main_v31 : IVec S16x256 1 := cmpf .olt main_v29 main_v30
  let main_c_11 : IVec S_ 1 := constantI S_ 1 1#1
  let main_v32 : IVec S_ 1 := (fun x v => Host.reduce IntOp.andi x v reducesTo_S16x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x64 .f32) (main_arg1 : FVec F S65536x16 .f32) (main_arg2 : FVec F S256x64 .f32) (main_arg3 : FVec F S256 .f32) (main_arg4 : FVec F S256x256 .f32) (main_arg5 : FVec F S256 .f32) (main_arg6 : FVec F S16x256 .f32) (main_arg7 : FVec F S16 .f32) (main_arg8 : FVec F S16x256 .f32) (main_arg9 : FVec F S16 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x16 .f32 := Host.absf main_arg1
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_c_1 : IVec S_ 1 := constantI S_ 1 1#1
  let main_v7 : IVec S_ 1 := (fun x v => Host.reduce IntOp.andi x v reducesTo_S65536x16_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S65536x64 : Shape := ⟨2, ![65536, 64]⟩
abbrev S65536x16 : Shape := ⟨2, ![65536, 16]⟩
abbrev S256x64 : Shape := ⟨2, ![256, 64]⟩
abbrev S256 : Shape := ⟨1, ![256]⟩
abbrev S256x256 : Shape := ⟨2, ![256, 256]⟩
abbrev S16x256 : Shape := ⟨2, ![16, 256]⟩
abbrev S16 : Shape := ⟨1, ![16]⟩
abbrev S64x256 : Shape := ⟨2, ![64, 256]⟩
abbrev S256x16 : Shape := ⟨2, ![256, 16]⟩
abbrev S256x32 : Shape := ⟨2, ![256, 32]⟩
abbrev S1x256 : Shape := ⟨2, ![1, 256]⟩
abbrev S32 : Shape := ⟨1, ![32]⟩
abbrev S1x32 : Shape := ⟨2, ![1, 32]⟩
abbrev S65536x1 : Shape := ⟨2, ![65536, 1]⟩
abbrev S4096x64 : Shape := ⟨2, ![4096, 64]⟩
abbrev S4096x16 : Shape := ⟨2, ![4096, 16]⟩
abbrev S4096x1 : Shape := ⟨2, ![4096, 1]⟩
abbrev S4096x256 : Shape := ⟨2, ![4096, 256]⟩
abbrev S4096x32 : Shape := ⟨2, ![4096, 32]⟩
abbrev S4096 : Shape := ⟨1, ![4096]⟩

abbrev nBuf : Space → Nat
  | .hbm => 24
  | .vmem => 14
  | .smem => 0
  | _ => 0

abbrev bufTy : (tb : Table) → Fin (tcTables nBuf tb) → BufTy
  | .hbm, ⟨0, _⟩ => ⟨S65536x64, .f32⟩
  | .hbm, ⟨1, _⟩ => ⟨S65536x16, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S16x256, .f32⟩
  | .hbm, ⟨7, _⟩ => ⟨S16, .f32⟩
  | .hbm, ⟨8, _⟩ => ⟨S16x256, .f32⟩
  | .hbm, ⟨9, _⟩ => ⟨S16, .f32⟩
  | .hbm, ⟨10, _⟩ => ⟨S64x256, .f32⟩
  | .hbm, ⟨11, _⟩ => ⟨S64x256, .bf16⟩
  | .hbm, ⟨12, _⟩ => ⟨S256x256, .f32⟩
  | .hbm, ⟨13, _⟩ => ⟨S256x256, .bf16⟩
  | .hbm, ⟨14, _⟩ => ⟨S256x16, .f32⟩
  | .hbm, ⟨15, _⟩ => ⟨S256x16, .f32⟩
  | .hbm, ⟨16, _⟩ => ⟨S256x32, .f32⟩
  | .hbm, ⟨17, _⟩ => ⟨S256x32, .bf16⟩
  | .hbm, ⟨18, _⟩ => ⟨S1x256, .f32⟩
  | .hbm, ⟨19, _⟩ => ⟨S1x256, .f32⟩
  | .hbm, ⟨20, _⟩ => ⟨S32, .f32⟩
  | .hbm, ⟨21, _⟩ => ⟨S1x32, .f32⟩
  | .hbm, ⟨22, _⟩ => ⟨S65536x16, .f32⟩
  | .hbm, ⟨23, _⟩ => ⟨S65536x1, .f32⟩
  | .local _ .vmem, ⟨0, _⟩ => ⟨S4096x64, .f32⟩
  | .local _ .vmem, ⟨1, _⟩ => ⟨S4096x64, .f32⟩
  | .local _ .vmem, ⟨2, _⟩ => ⟨S4096x16, .f32⟩
  | .local _ .vmem, ⟨3, _⟩ => ⟨S4096x16, .f32⟩
  | .local _ .vmem, ⟨4, _⟩ => ⟨S64x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x32, .bf16⟩
  | .local _ .vmem, ⟨9, _⟩ => ⟨S1x32, .f32⟩
  | .local _ .vmem, ⟨10, _⟩ => ⟨S4096x16, .f32⟩
  | .local _ .vmem, ⟨11, _⟩ => ⟨S4096x16, .f32⟩
  | .local _ .vmem, ⟨12, _⟩ => ⟨S4096x1, .f32⟩
  | .local _ .vmem, ⟨13, _⟩ => ⟨S4096x1, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x64_S64x256_1_0 : S256x64.Transposes [1, 0] S64x256
  bitsLt_bf16_f32 : FTy.bits .bf16 < FTy.bits .f32
  transposes_S256x256_S256x256_1_0 : S256x256.Transposes [1, 0] S256x256
  transposes_S16x256_S256x16_1_0 : S16x256.Transposes [1, 0] S256x16
  concatenates_S256x16_S256x16_S256x32_d1 : Shape.Concatenates [S256x16, S256x16] S256x32 1
  shapeCasts_S256_S1x256 : S256.ShapeCasts S1x256
  concatenates_S16_S16_S32_d0 : Shape.Concatenates [S16, S16] S32 0
  shapeCasts_S32_S1x32 : S32.ShapeCasts S1x32
  inb_S4096x64_S4096x64_0_0 : ∀ a, (![0, 0] : Fin 2 → Nat) a + S4096x64.size a ≤ S4096x64.size a
  h_S4096x64 : 0 < S4096x64.numel
  inb_S4096x16_S4096x16_0_0 : ∀ a, (![0, 0] : Fin 2 → Nat) a + S4096x16.size a ≤ S4096x16.size a
  h_S4096x16 : 0 < S4096x16.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  slices_S4096x32_o0_0_S4096x16 : S4096x32.Slices ![0, 0] S4096x16
  slices_S4096x32_o0_16_S4096x16 : S4096x32.Slices ![0, 16] S4096x16
  reduces_S4096x16_S4096 : S4096x16.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S65536x16.size a
  hwx0_1 : ∀ i : grid0.Coords, EltTy.bits .f32 = 32 ∨ (Rect.block (s := S65536x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S256x32.size a
  hwx0_6 : ∀ i : grid0.Coords, EltTy.bits .bf16 = 32 ∨ (Rect.block (s := S256x32) S256x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x16.size a ≤ S65536x16.size a
  hwx0_8 : ∀ i : grid0.Coords, EltTy.bits .f32 = 32 ∨ (Rect.block (s := S65536x16) S4096x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x1.size a ≤ S65536x1.size a
  hwx0_9 : ∀ i : grid0.Coords, EltTy.bits .f32 = 32 ∨ (Rect.block (s := S65536x1) S4096x1.size (cc0_transform_9 i) (hinb0_9 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12_0) S4096x16.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_1) S4096x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x16 : Shape := ⟨2, ![65536, 16]⟩
abbrev S256x64 : Shape := ⟨2, ![256, 64]⟩
abbrev S256 : Shape := ⟨1, ![256]⟩
abbrev S256x256 : Shape := ⟨2, ![256, 256]⟩
abbrev S16x256 : Shape := ⟨2, ![16, 256]⟩
abbrev S16 : Shape := ⟨1, ![16]⟩
abbrev S64x256 : Shape := ⟨2, ![64, 256]⟩
abbrev S65536x256 : Shape := ⟨2, ![65536, 256]⟩
abbrev S1x256 : Shape := ⟨2, ![1, 256]⟩
abbrev S_ : Shape := ⟨0, ![]⟩
abbrev S256x16 : Shape := ⟨2, ![256, 16]⟩
abbrev S1x16 : Shape := ⟨2, ![1, 16]⟩
abbrev S65536 : Shape := ⟨1, ![65536]⟩
abbrev S65536x1 : Shape := ⟨2, ![65536, 1]⟩

abbrev nBuf : Space → Nat
  | .hbm => 83
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x16, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S16x256, .f32⟩
  | .hbm, ⟨7, _⟩ => ⟨S16, .f32⟩
  | .hbm, ⟨8, _⟩ => ⟨S16x256, .f32⟩
  | .hbm, ⟨9, _⟩ => ⟨S16, .f32⟩
  | .hbm, ⟨10, _⟩ => ⟨S64x256, .f32⟩
  | .hbm, ⟨11, _⟩ => ⟨S65536x256, .f32⟩
  | .hbm, ⟨12, _⟩ => ⟨S1x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S256x256, .f32⟩
  | .hbm, ⟨19, _⟩ => ⟨S65536x256, .f32⟩
  | .hbm, ⟨20, _⟩ => ⟨S1x256, .f32⟩
  | .hbm, ⟨21, _⟩ => ⟨S65536x256, .f32⟩
  | .hbm, ⟨22, _⟩ => ⟨S65536x256, .f32⟩
  | .hbm, ⟨23, _⟩ => ⟨S_, .f32⟩
  | .hbm, ⟨24, _⟩ => ⟨S65536x256, .f32⟩
  | .hbm, ⟨25, _⟩ => ⟨S65536x256, .f32⟩
  | .hbm, ⟨26, _⟩ => ⟨S256x16, .f32⟩
  | .hbm, ⟨27, _⟩ => ⟨S65536x16, .f32⟩
  | .hbm, ⟨28, _⟩ => ⟨S1x16, .f32⟩
  | .hbm, ⟨29, _⟩ => ⟨S65536x16, .f32⟩
  | .hbm, ⟨30, _⟩ => ⟨S65536x16, .f32⟩
  | .hbm, ⟨31, _⟩ => ⟨S65536x16, .f32⟩
  | .hbm, ⟨32, _⟩ => ⟨S_, .f32⟩
  | .hbm, ⟨33, _⟩ => ⟨S65536x16, .f32⟩
  | .hbm, ⟨34, _⟩ => ⟨S65536x16, .f32⟩
  | .hbm, ⟨35, _⟩ => ⟨S_, .f32⟩
  | .hbm, ⟨36, _⟩ => ⟨S65536x16, .f32⟩
  | .hbm, ⟨37, _⟩ => ⟨S65536x16, .f32⟩
  | .hbm, ⟨38, _⟩ => ⟨S_, .f32⟩
  | .hbm, ⟨39, _⟩ => ⟨S65536x16, .f32⟩
  | .hbm, ⟨40, _⟩ => ⟨S65536x16, .f32⟩
  | .hbm, ⟨41, _⟩ => ⟨S_, .f32⟩
  | .hbm, ⟨42, _⟩ => ⟨S65536x16, .f32⟩
  | .hbm, ⟨43, _⟩ => ⟨S65536x16, .f32⟩
  | .hbm, ⟨44, _⟩ => ⟨S256x16, .f32⟩
  | .hbm, ⟨45, _⟩ => ⟨S65536x16, .f32⟩
  | .hbm, ⟨46, _⟩ => ⟨S1x16, .f32⟩
  | .hbm, ⟨47, _⟩ => ⟨S65536x16, .f32⟩
  | .hbm, ⟨48, _⟩ => ⟨S65536x16, .f32⟩
  | .hbm, ⟨49, _⟩ => ⟨S_, .f32⟩
  | .hbm, ⟨50, _⟩ => ⟨S65536x16, .f32⟩
  | .hbm, ⟨51, _⟩ => ⟨S65536x16, .f32⟩
  | .hbm, ⟨52, _⟩ => ⟨S65536x16, .f32⟩
  | .hbm, ⟨53, _⟩ => ⟨S65536x16, .f32⟩
  | .hbm, ⟨54, _⟩ => ⟨S65536x16, .i1⟩
  | .hbm, ⟨55, _⟩ => ⟨S65536x16, .f32⟩
  | .hbm, ⟨56, _⟩ => ⟨S65536x16, .f32⟩
  | .hbm, ⟨57, _⟩ => ⟨S65536x16, .f32⟩
  | .hbm, ⟨58, _⟩ => ⟨S65536x16, .f32⟩
  | .hbm, ⟨59, _⟩ => ⟨S65536x16, .f32⟩
  | .hbm, ⟨60, _⟩ => ⟨S65536x16, .f32⟩
  | .hbm, ⟨61, _⟩ => ⟨S65536x16, .f32⟩
  | .hbm, ⟨62, _⟩ => ⟨S65536x16, .f32⟩
  | .hbm, ⟨63, _⟩ => ⟨S_, .f32⟩
  | .hbm, ⟨64, _⟩ => ⟨S65536x16, .f32⟩
  | .hbm, ⟨65, _⟩ => ⟨S65536x16, .f32⟩
  | .hbm, ⟨66, _⟩ => ⟨S65536x16, .f32⟩
  | .hbm, ⟨67, _⟩ => ⟨S65536x16, .f32⟩
  | .hbm, ⟨68, _⟩ => ⟨S65536x16, .f32⟩
  | .hbm, ⟨69, _⟩ => ⟨S65536x16, .f32⟩
  | .hbm, ⟨70, _⟩ => ⟨S_, .f32⟩
  | .hbm, ⟨71, _⟩ => ⟨S65536x16, .f32⟩
  | .hbm, ⟨72, _⟩ => ⟨S65536x16, .f32⟩
  | .hbm, ⟨73, _⟩ => ⟨S65536x16, .f32⟩
  | .hbm, ⟨74, _⟩ => ⟨S_, .f32⟩
  | .hbm, ⟨75, _⟩ => ⟨S65536, .f32⟩
  | .hbm, ⟨76, _⟩ => ⟨S_, .f32⟩
  | .hbm, ⟨77, _⟩ => ⟨S65536, .f32⟩
  | .hbm, ⟨78, _⟩ => ⟨S65536, .f32⟩
  | .hbm, ⟨79, _⟩ => ⟨S_, .f32⟩
  | .hbm, ⟨80, _⟩ => ⟨S65536, .f32⟩
  | .hbm, ⟨81, _⟩ => ⟨S65536, .f32⟩
  | .hbm, ⟨82, _⟩ => ⟨S65536x1, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call2_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_4 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_5 : Ref sig .tc := ⟨.hbm, 74, rfl⟩
abbrev main_v41 : Ref sig .tc := ⟨.hbm, 75, rfl⟩
abbrev main_cst_6 : Ref sig .tc := ⟨.hbm, 76, rfl⟩
abbrev main_v42 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩

abbrev nD : Nat := 1
abbrev τ : Topo := Topo.v7x

variable {F : FTy → Type} [FloatOps F]

class Facts₀ : Prop where
  transposes_S256x64_S64x256_1_0 : S256x64.Transposes [1, 0] S64x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S256x256_S256x256_1_0 : S256x256.Transposes [1, 0] S256x256
  transposes_S16x256_S256x16_1_0 : S16x256.Transposes [1, 0] S256x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S65536x16 : S_.BroadcastsInDim S65536x16 (![] : Fin 0 → Fin S65536x16.rank)
  reducesTo_S65536x16_S65536_d1 : S65536x16.ReducesTo [1] S65536
  h_S_ : 0 < S_.numel
  bcast_S_S65536 : S_.BroadcastsInDim S65536 (![] : Fin 0 → Fin S65536.rank)
  shapeCasts_S65536_S65536x1 : S65536.ShapeCasts S65536x1
  dot_S65536x64_S64x256_S65536x256_1_0_0_1_n_n_wf : DotDims.WF S65536x64 S64x256 S65536x256 [1] [0] [0] [1] [] []
  dot_S65536x256_S256x256_S65536x256_1_0_0_1_n_n_wf : DotDims.WF S65536x256 S256x256 S65536x256 [1] [0] [0] [1] [] []
  dot_S65536x256_S256x16_S65536x16_1_0_0_1_n_n_wf : DotDims.WF S65536x256 S256x16 S65536x16 [1] [0] [0] [1] [] []

variable [Facts₀]

def dot_S65536x64_S64x256_S65536x256_1_0_0_1_n_n : DotDims S65536x64 S64x256 S65536x256 where
  lhsContracting := [1]
  rhsContracting := [0]
  lhsNonContracting := [0]
  rhsNonContracting := [1]
  lhsBatch := []
  rhsBatch := []
  wf := dot_S65536x64_S64x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x16_S65536x16_1_0_0_1_n_n : DotDims S65536x256 S256x16 S65536x16 where
  lhsContracting := [1]
  rhsContracting := [0]
  lhsNonContracting := [0]
  rhsNonContracting := [1]
  lhsBatch := []
  rhsBatch := []
  wf := dot_S65536x256_S256x16_S65536x16_1_0_0_1_n_n_wf

class Facts : Prop extends Facts₀ where

variable [Facts]
-- ==== Proof.Spec.lean ====
/-
  The Gaussian policy head, as one function of its parameter arrays on the extended reals.

  A row r of the state matrix x goes through two dense layers with a clamp at zero,
      h1(r,j) = max (Σ_k x(r,k)·W1(j,k) + b1(j)) 0,        h2(r,j) = max (Σ_k h1(r,k)·W2(j,k) + b2(j)) 0,
  then two linear heads,  m(r,j) = Σ_k h2(r,k)·Wmu(j,k) + bmu(j)  and  s(r,j) = Σ_k h2(r,k)·Wls(j,k) + bls(j).
  The mean is  −1 + (½·(tanh m + 1))·2,  the scale is  softplus s + 10⁻⁶ (the f32 nearest it),  with
      softplus z = max z 0 + log(1 + exp(−|z − 0|))
  guarded by the test z − 0 ≠ z − 0, which no extended real passes. The sampled action is mean + scale·ε and its log
  density is  −½·Σ_j (ε(r,j)² + 2·log scale(r,j)) − 8·log 2π (the f32 nearest it).

  The float constants stay as their bit patterns: both programs carry the same words, so none is ever evaluated
  except the zero word.  A weight matrix is indexed (output unit, input unit), as the arrays are given.
-/
import Idealize.ShloMosaic.PureOps.Ideal
import Idealize.ShloMosaic.PureOps.Ideal.Laws
import Idealize.ShloMosaic.Lib.ValueIdx

noncomputable section

open scoped BigOperators

namespace Cert.GaussPolicy

open Idealize.ShloMosaic Idealize.ShloMosaic.ValueIdx

/-- An array of extended reals over a literal shape. -/
abbrev Arr (n : Nat) (d : Fin n → Nat) := (⟨n, d⟩ : Shape).Idx → EReal

section
variable (x : Arr 2 ![65536, 64]) (eps : Arr 2 ![65536, 16])
  (W1 : Arr 2 ![256, 64]) (b1 : Arr 1 ![256]) (W2 : Arr 2 ![256, 256]) (b2 : Arr 1 ![256])
  (Wmu : Arr 2 ![16, 256]) (bmu : Arr 1 ![16]) (Wls : Arr 2 ![16, 256]) (bls : Arr 1 ![16])

/-- First hidden layer at row r, unit j. -/
def hidden1 (r : Fin 65536) (j : Fin 256) : EReal :=
  max ((∑ k : Fin 64, x (ix2 r k) * W1 (ix2 j k)) + b1 (ix1 j)) 0

/-- Second hidden layer at row r, unit j. -/
def hidden2 (r : Fin 65536) (j : Fin 256) : EReal :=
  max ((∑ k : Fin 256, hidden1 x W1 b1 r k * W2 (ix2 j k)) + b2 (ix1 j)) 0

/-- The mean head before its squashing. -/
def meanPre (r : Fin 65536) (j : Fin 16) : EReal :=
  (∑ k : Fin 256, hidden2 x W1 b1 W2 b2 r k * Wmu (ix2 j k)) + bmu (ix1 j)

/-- The scale head before its softplus. -/
def scalePre (r : Fin 65536) (j : Fin 16) : EReal :=
  (∑ k : Fin 256, hidden2 x W1 b1 W2 b2 r k * Wls (ix2 j k)) + bls (ix1 j)

end

/-- softplus, in the guarded form log-add-exp of (z, 0) takes: where z − 0 differs from itself the sum z + 0, else
    max z 0 + log(1 + exp(−|z − 0|)). -/
def softplus (z : EReal) : EReal :=
  Scalar.select (Ideal.cmp .une (z - 0) (z - 0)) (z + 0)
    (max z 0 + Ideal.log1p (Ideal.exp (-(max (z - 0) (-(z - 0))))))

/-- The same with the exponent written as the difference 0 − |z − 0| and the guard as the ordered comparison: on the
    extended reals 0 − a is −a, and an ordered and an unordered "differs" are one test. -/
theorem softplus_sub_form (z : EReal) :
    Scalar.select (Ideal.cmp .one (z - 0) (z - 0)) (z + 0)
      (max z 0 + Ideal.log1p (Ideal.exp (0 - (max (z - 0) (-(z - 0)))))) = softplus z := by
  unfold softplus
  rw [zero_sub]
  rfl

section
variable (x : Arr 2 ![65536, 64]) (eps : Arr 2 ![65536, 16])
  (W1 : Arr 2 ![256, 64]) (b1 : Arr 1 ![256]) (W2 : Arr 2 ![256, 256]) (b2 : Arr 1 ![256])
  (Wmu : Arr 2 ![16, 256]) (bmu : Arr 1 ![16]) (Wls : Arr 2 ![16, 256]) (bls : Arr 1 ![16])

/-- The scale of the Gaussian at row r, coordinate j. -/
def scale (r : Fin 65536) (j : Fin 16) : EReal :=
  softplus (scalePre x W1 b1 W2 b2 Wls bls r j) + Ideal.ofBits .f32 0x358637BD#32

/-- The mean of the Gaussian at row r, coordinate j. -/
def mean (r : Fin 65536) (j : Fin 16) : EReal :=
  Ideal.ofBits .f32 0xBF800000#32 +
    (Ideal.ofBits .f32 0x3F000000#32 * (Ideal.tanh (meanPre x W1 b1 W2 b2 Wmu bmu r j) + Ideal.ofBits .f32 0x3F800000#32))
      * Ideal.ofBits .f32 0x40000000#32

/-- The sampled action: mean + scale · ε. -/
def action (r : Fin 65536) (j : Fin 16) : EReal :=
  mean x W1 b1 W2 b2 Wmu bmu r j + scale x W1 b1 W2 b2 Wls bls r j * eps (ix2 r j)

/-- The log density of the sample. -/
def logDensity (r : Fin 65536) : EReal :=
  Ideal.ofBits .f32 0xBF000000#32 *
      (∑ j : Fin 16, (eps (ix2 r j) * eps (ix2 r j)
        + Ideal.ofBits .f32 0x40000000#32 * Ideal.log (scale x W1 b1 W2 b2 Wls bls r j)))
    - Ideal.ofBits .f32 0x416B3F8E#32

/-- The action array [65536, 16]. -/
def actionArr : Arr 2 ![65536, 16] := fun i => action x eps W1 b1 W2 b2 Wmu bmu Wls bls (i 0) (i 1)

/-- The log-density column [65536, 1]. -/
def logDensityArr : Arr 2 ![65536, 1] := fun i => logDensity x eps W1 b1 W2 b2 Wls bls (i 0)

end

end Cert.GaussPolicy

end
-- ==== Proof.RefRead.lean ====
/-
  The reference program's stages are the policy head's functions.

  Each stage of the reference is read at an entry written by its coordinates: a product of two matrices as the sum over
  the contracted coordinate, a bias vector spread over the rows as its entry at the column, the rank-0 zero spread over
  a matrix as 0, a transposed weight matrix at the swapped coordinates. Layer by layer this gives the two hidden layers,
  the two heads, the scale, the action and the log density of `Cert.GaussPolicy`.
-/
import proofs.«136955_j66838281061057_2_alg».proof.Proof.Gen.ReferenceIdeal.Read
import proofs.«136955_j66838281061057_2_alg».proof.Proof.Spec

noncomputable section

open scoped BigOperators

namespace Cert.GaussPolicy.Ref

open Cert.ReferenceIdeal Cert.ReferenceIdeal.Read Idealize.ShloMosaic Idealize.ShloMosaic.ValueIdx Cert.GaussPolicy

variable (x0 : (⟨S65536x64, .f32⟩ : BufTy).Contents (Elt Ideal)) (x1 : (⟨S65536x16, .f32⟩ : BufTy).Contents (Elt Ideal))
  (x2 : (⟨S256x64, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S16x256, .f32⟩ : BufTy).Contents (Elt Ideal)) (x7 : (⟨S16, .f32⟩ : BufTy).Contents (Elt Ideal))
  (x8 : (⟨S16x256, .f32⟩ : BufTy).Contents (Elt Ideal)) (x9 : (⟨S16, .f32⟩ : BufTy).Contents (Elt Ideal))

/-! ## The first hidden layer -/

theorem lidx_v1 (r : Fin 65536) (j : Fin 256) (k : Fin 64) : lidx_main_v1 (ix2 r j) k = ix2 r k := by
  funext a; apply Fin.ext; match a with | ⟨0, _⟩ => rfl | ⟨1, _⟩ => rfl

theorem ridx_v1 (r : Fin 65536) (j : Fin 256) (k : Fin 64) : idx_main_v0 (ridx_main_v1 (ix2 r j) k) = ix2 j k := by
  funext a; apply Fin.ext; match a with | ⟨0, _⟩ => rfl | ⟨1, _⟩ => rfl

theorem bias_v3 (r : Fin 65536) (j : Fin 256) : idx_main_v2 (idx_main_v3 (ix2 r j)) = ix1 j := by
  funext a; apply Fin.ext; match a with | ⟨0, _⟩ => rfl

/-- Stage %5 at (r, j) is the first hidden layer. -/
theorem hidden1_at (r : Fin 65536) (j : Fin 256) :
    val_main_v5 (F := Ideal) x0 x2 x3 (ix2 r j) = hidden1 x0 x2 x3 r j := by
  rw [val_main_v5_apply, val_main_v4_apply, val_main_v1_apply, val_main_v3_apply, val_main_v2_apply,
    val_main_call0_v0_apply, val_main_call0_cst_apply, bias_v3]
  simp only [val_main_v0_apply, lidx_v1, ridx_v1]
  show max (_ + _) (Ideal.ofBits .f32 0x00000000#32) = _
  rw [Ideal.ofBits_zero_f32]
  rfl

/-! ## The second hidden layer -/

theorem lidx_v7 (r : Fin 65536) (j : Fin 256) (k : Fin 256) : lidx_main_v7 (ix2 r j) k = ix2 r k := by
  funext a; apply Fin.ext; match a with | ⟨0, _⟩ => rfl | ⟨1, _⟩ => rfl

theorem ridx_v7 (r : Fin 65536) (j : Fin 256) (k : Fin 256) : idx_main_v6 (ridx_main_v7 (ix2 r j) k) = ix2 j k := by
  funext a; apply Fin.ext; match a with | ⟨0, _⟩ => rfl | ⟨1, _⟩ => rfl

theorem bias_v9 (r : Fin 65536) (j : Fin 256) : idx_main_v8 (idx_main_v9 (ix2 r j)) = ix1 j := by
  funext a; apply Fin.ext; match a with | ⟨0, _⟩ => rfl

/-- Stage %11 at (r, j) is the second hidden layer. -/
theorem hidden2_at (r : Fin 65536) (j : Fin 256) :
    val_main_v11 (F := Ideal) x0 x2 x3 x4 x5 (ix2 r j) = hidden2 x0 x2 x3 x4 x5 r j := by
  rw [val_main_v11_apply, val_main_v10_apply, val_main_v7_apply, val_main_v9_apply, val_main_v8_apply,
    val_main_call1_v0_apply, val_main_call1_cst_apply, bias_v9]
  simp only [val_main_v6_apply, lidx_v7, ridx_v7, hidden1_at]
  show max (_ + _) (Ideal.ofBits .f32 0x00000000#32) = _
  rw [Ideal.ofBits_zero_f32]
  rfl

/-! ## The two heads -/

theorem lidx_v13 (r : Fin 65536) (j : Fin 16) (k : Fin 256) : lidx_main_v13 (ix2 r j) k = ix2 r k := by
  funext a; apply Fin.ext; match a with | ⟨0, _⟩ => rfl | ⟨1, _⟩ => rfl

theorem ridx_v13 (r : Fin 65536) (j : Fin 16) (k : Fin 256) : idx_main_v12 (ridx_main_v13 (ix2 r j) k) = ix2 j k := by
  funext a; apply Fin.ext; match a with | ⟨0, _⟩ => rfl | ⟨1, _⟩ => rfl

theorem bias_v15 (r : Fin 65536) (j : Fin 16) : idx_main_v14 (idx_main_v15 (ix2 r j)) = ix1 j := by
  funext a; apply Fin.ext; match a with | ⟨0, _⟩ => rfl

/-- Stage %16 at (r, j) is the mean head before its squashing. -/
theorem meanPre_at (r : Fin 65536) (j : Fin 16) :
    val_main_v16 (F := Ideal) x0 x2 x3 x4 x5 x6 x7 (ix2 r j) = meanPre x0 x2 x3 x4 x5 x6 x7 r j := by
  rw [val_main_v16_apply, val_main_v13_apply, val_main_v15_apply, val_main_v14_apply, bias_v15]
  simp only [val_main_v12_apply, lidx_v13, ridx_v13, hidden2_at]
  rfl

theorem lidx_v27 (r : Fin 65536) (j : Fin 16) (k : Fin 256) : lidx_main_v27 (ix2 r j) k = ix2 r k := by
  funext a; apply Fin.ext; match a with | ⟨0, _⟩ => rfl | ⟨1, _⟩ => rfl

theorem ridx_v27 (r : Fin 65536) (j : Fin 16) (k : Fin 256) : idx_main_v26 (ridx_main_v27 (ix2 r j) k) = ix2 j k := by
  funext a; apply Fin.ext; match a with | ⟨0, _⟩ => rfl | ⟨1, _⟩ => rfl

theorem bias_v29 (r : Fin 65536) (j : Fin 16) : idx_main_v28 (idx_main_v29 (ix2 r j)) = ix1 j := by
  funext a; apply Fin.ext; match a with | ⟨0, _⟩ => rfl

/-- Stage %30 at (r, j) is the scale head before its softplus. -/
theorem scalePre_at (r : Fin 65536) (j : Fin 16) :
    val_main_v30 (F := Ideal) x0 x2 x3 x4 x5 x8 x9 (ix2 r j) = scalePre x0 x2 x3 x4 x5 x8 x9 r j := by
  rw [val_main_v30_apply, val_main_v27_apply, val_main_v29_apply, val_main_v28_apply, bias_v29]
  simp only [val_main_v26_apply, lidx_v27, ridx_v27, hidden2_at]
  rfl

/-! ## Scale, mean, action -/

/-- Stage %33 at (r, j) is the scale: the called softplus, operation by operation, of the scale head, plus the small
    constant. Every zero the softplus spreads is the zero word. -/
theorem scale_at (r : Fin 65536) (j : Fin 16) :
    val_main_v33 (F := Ideal) x0 x2 x3 x4 x5 x8 x9 (ix2 r j) = scale x0 x2 x3 x4 x5 x8 x9 r j := by
  simp only [val_main_v33_apply, val_main_v31_apply, val_main_call2_v4_apply, val_main_call2_v3_apply,
    val_main_call2_v6_apply, val_main_call2_v11_apply, val_main_call2_v1_apply, val_main_call2_v10_apply,
    val_main_call2_v9_apply, val_main_call2_v8_apply, val_main_call2_v7_apply, val_main_call2_v0_apply,
    val_main_call2_v2_apply, val_main_call2_v5_apply, val_main_call2_cst_apply, val_main_v32_apply,
    val_main_cst_3_apply, scalePre_at]
  unfold scale softplus
  show Scalar.select (Ideal.cmp .une (_ - Ideal.ofBits .f32 0x00000000#32) (_ - Ideal.ofBits .f32 0x00000000#32))
      (_ + Ideal.ofBits .f32 0x00000000#32)
      (max _ (Ideal.ofBits .f32 0x00000000#32) + Ideal.log1p (Ideal.exp (-(max (_ - Ideal.ofBits .f32 0x00000000#32)
        (-(_ - Ideal.ofBits .f32 0x00000000#32)))))) + _ = _
  rw [Ideal.ofBits_zero_f32]
  rfl

/-- Stage %25 at (r, j) is the mean. -/
theorem mean_at (r : Fin 65536) (j : Fin 16) :
    val_main_v25 (F := Ideal) x0 x2 x3 x4 x5 x6 x7 (ix2 r j) = mean x0 x2 x3 x4 x5 x6 x7 r j := by
  simp only [val_main_v25_apply, val_main_v24_apply, val_main_cst_2_apply, val_main_v23_apply, val_main_v22_apply,
    val_main_cst_1_apply, val_main_v21_apply, val_main_v20_apply, val_main_cst_0_apply, val_main_v19_apply,
    val_main_v18_apply, val_main_cst_apply, val_main_v17_apply, meanPre_at]
  rfl

/-- Stage %35 at (r, j) is the action. -/
theorem action_at (r : Fin 65536) (j : Fin 16) :
    val_main_v35 (F := Ideal) x0 x1 x2 x3 x4 x5 x6 x7 x8 x9 (ix2 r j) = action x0 x1 x2 x3 x4 x5 x6 x7 x8 x9 r j := by
  rw [val_main_v35_apply, val_main_v34_apply, mean_at, scale_at]
  rfl

/-- The first result is the action array. -/
theorem actionArr_eq : val_main_v35 (F := Ideal) x0 x1 x2 x3 x4 x5 x6 x7 x8 x9 = actionArr x0 x1 x2 x3 x4 x5 x6 x7 x8 x9 := by
  funext i
  obtain ⟨r, j, rfl⟩ : ∃ (r : Fin 65536) (j : Fin 16), i = ix2 r j := ⟨i 0, i 1, eq_ix2 i⟩
  exact action_at x0 x1 x2 x3 x4 x5 x6 x7 x8 x9 r j

/-! ## The log density -/

theorem idx_v41 (r : Fin 65536) (k : Fin 16) : idx_main_v41 (ix1 r) k = ix2 r k := by
  funext a; apply Fin.ext; match a with | ⟨0, _⟩ => rfl | ⟨1, _⟩ => rfl

/-- Stage %45 at r is the log density: the host's sum over the 16 coordinates starts from the zero word. -/
theorem logDensity_at (r : Fin 65536) :
    val_main_v45 (F := Ideal) x0 x1 x2 x3 x4 x5 x8 x9 (ix1 r) = logDensity x0 x1 x2 x3 x4 x5 x8 x9 r := by
  rw [val_main_v45_apply, val_main_v44_apply, val_main_cst_7_apply, val_main_v43_apply, val_main_v42_apply,
    val_main_cst_6_apply, val_main_v41_apply, val_main_cst_5_apply]
  simp only [idx_v41, val_main_v40_apply, val_main_v36_apply, val_main_v39_apply, val_main_v38_apply,
    val_main_cst_4_apply, val_main_v37_apply, scale_at]
  show Ideal.ofBits .f32 0xBF000000#32 * (Ideal.ofBits .f32 0x00000000#32 + _) - _ = _
  rw [Ideal.ofBits_zero_f32, zero_add]
  rfl

theorem idx_v46 (r : Fin 65536) (q : Fin 1) : idx_main_v46 (ix2 r q) = ix1 r := by
  funext a; apply Fin.ext
  match a with
  | ⟨0, _⟩ =>
    show r.val * 1 + q.val = r.val
    have h1 : q.val < 1 := q.isLt
    omega

/-- The second result is the log-density column. -/
theorem logDensityArr_eq :
    val_main_v46 (F := Ideal) x0 x1 x2 x3 x4 x5 x8 x9 = logDensityArr x0 x1 x2 x3 x4 x5 x8 x9 := by
  funext i
  obtain ⟨r, q, rfl⟩ : ∃ (r : Fin 65536) (q : Fin 1), i = ix2 r q := ⟨i 0, i 1, eq_ix2 i⟩
  rw [val_main_v46_apply, idx_v46]
  exact logDensity_at x0 x1 x2 x3 x4 x5 x8 x9 r

end Cert.GaussPolicy.Ref

end
-- ==== Proof.LibPlainDot.lean ====
/-
  The rows-times-columns matrix product `[M, K] × [K, N] → [M, N]` (the left operand contracted on its axis 1, the
  right one on its axis 0, no batch axis) read at an index, at the ideal instance where a float is an extended
  real: entry `(r, c)` is `∑ k, lhs (r, k) * rhs (k, c)`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Proof.PlainDot

/-- The product's dimension numbers; their conditions `wf` are decided on a program's literal shapes. -/
abbrev plainDot (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Index
variable {M K N : Nat} (wf : DotDims.WF ⟨2, ![M, K]⟩ ⟨2, ![K, N]⟩ ⟨2, ![M, N]⟩ [1] [0] [0] [1] [] [])

/-- The contraction index set is the one coordinate range `Fin K`. -/
abbrev contrEquiv : (plainDot M K N wf).contr.Idx ≃ Fin K := contrEquiv1 (plainDot M K N wf) K rfl rfl

/-- At result index `(r, c)` and contraction coordinate `k` the left operand is read at `(r, k)` … -/
theorem lhsIdx_eq (r : Fin M) (c : Fin N) (k : Fin K) :
    (plainDot M K N wf).lhsIdx (ix2 r c) ((contrEquiv wf).symm k) = ix2 r k := by
  funext a
  refine Fin.ext ?_
  match a with
  | ⟨0, _⟩ => rfl
  | ⟨1, _⟩ => rfl

/-- … and the right operand at `(k, c)`. -/
theorem rhsIdx_eq (r : Fin M) (c : Fin N) (k : Fin K) :
    (plainDot M K N wf).rhsIdx (ix2 r c) ((contrEquiv wf).symm k) = ix2 k c := by
  funext a
  refine Fin.ext ?_
  match a with
  | ⟨0, _⟩ => rfl
  | ⟨1, _⟩ => rfl

/-- THE CONTRACTION'S SUM over the contraction index set is the sum over `k : Fin K` of `lhs (r, k) * rhs (k, c)`. -/
theorem contr_sum (lhs : (⟨2, ![M, K]⟩ : Shape).Idx → EReal) (rhs : (⟨2, ![K, N]⟩ : Shape).Idx → EReal)
    (r : Fin M) (c : Fin N) :
    (∑ k : (plainDot M K N wf).contr.Idx,
        lhs ((plainDot M K N wf).lhsIdx (ix2 r c) k) * rhs ((plainDot M K N wf).rhsIdx (ix2 r c) k)) =
      ∑ k : Fin K, lhs (ix2 r k) * rhs (ix2 k c) := by
  rw [← Equiv.sum_comp (contrEquiv wf).symm]
  refine Finset.sum_congr rfl fun k _ => ?_
  rw [lhsIdx_eq, rhsIdx_eq]

end Index

section Apply
variable {M K N : Nat} {φ₁ φ₂ : FTy} (wf : DotDims.WF ⟨2, ![M, K]⟩ ⟨2, ![K, N]⟩ ⟨2, ![M, N]⟩ [1] [0] [0] [1] [] [])
  (prec : Option ContractPrecision) (lhs : FVec Ideal ⟨2, ![M, K]⟩ φ₁) (rhs : FVec Ideal ⟨2, ![K, N]⟩ φ₂)

/-- A matrix-unit product onto any accumulator, read at `(r, c)`: the accumulator there plus the sum. -/
theorem matmul_plain_apply (acc : FVec Ideal ⟨2, ![M, N]⟩ .f32) (r : Fin M) (c : Fin N) :
    FloatOps.matmul (plainDot M K N wf) prec lhs rhs acc (ix2 r c) = acc (ix2 r c) + ∑ k : Fin K, lhs (ix2 r k) * rhs (ix2 k c) := by
  rw [Ideal.matmul_apply, contr_sum]

/-- Onto the zero splat, read at `(r, c)`: the sum. -/
theorem matmul_zero_plain_apply (r : Fin M) (c : Fin N) :
    FloatOps.matmul (plainDot M K N wf) prec lhs rhs (constant ⟨2, ![M, N]⟩ .f32 0x00000000#32) (ix2 r c) =
      ∑ k : Fin K, lhs (ix2 r k) * rhs (ix2 k c) := by
  rw [Ideal.matmul_constant_zero_apply, contr_sum]

/-- The same two in the spelling a kernel body prints (`matmul d prec lhs rhs acc`). -/
theorem matmul_plain_apply' (acc : FVec Ideal ⟨2, ![M, N]⟩ .f32) (r : Fin M) (c : Fin N) :
    matmul (F := Ideal) (plainDot M K N wf) prec lhs rhs acc (ix2 r c) = acc (ix2 r c) + ∑ k : Fin K, lhs (ix2 r k) * rhs (ix2 k c) :=
  matmul_plain_apply wf prec lhs rhs acc r c
theorem matmul_zero_plain_apply' (r : Fin M) (c : Fin N) :
    matmul (F := Ideal) (plainDot M K N wf) prec lhs rhs (constant ⟨2, ![M, N]⟩ .f32 0x00000000#32) (ix2 r c) =
      ∑ k : Fin K, lhs (ix2 r k) * rhs (ix2 k c) :=
  matmul_zero_plain_apply wf prec lhs rhs r c

/-- The host's product at any schedule key, read at `(r, c)`: the sum. -/
theorem dotGeneralAt_plain_apply (sched : HostSchedule) (r : Fin M) (c : Fin N) :
    FloatOps.dotGeneral (plainDot M K N wf) prec sched lhs rhs (ix2 r c) = ∑ k : Fin K, lhs (ix2 r k) * rhs (ix2 k c) := by
  rw [Ideal.dotGeneral_apply, contr_sum]

/-- The host's product as a reference prints it, read at `(r, c)`: the sum. -/
theorem dotGeneral_plain_apply (r : Fin M) (c : Fin N) :
    Host.dotGeneral (F := Ideal) (plainDot M K N wf) prec lhs rhs (ix2 r c) = ∑ k : Fin K, lhs (ix2 r k) * rhs (ix2 k c) :=
  dotGeneralAt_plain_apply wf prec lhs rhs .single r c

end Apply

/-- A program's own record with the same lists is this one (the check that the lemmas rewrite a printed product). -/
example (d : DotDims ⟨2, ![7, 5]⟩ ⟨2, ![5, 3]⟩ ⟨2, ![7, 3]⟩)
    (hd : d = { lhsContracting := [1], rhsContracting := [0], lhsNonContracting := [0], rhsNonContracting := [1], lhsBatch := [], rhsBatch := [] })
    (l : FVec Ideal ⟨2, ![7, 5]⟩ .bf16) (rr : FVec Ideal ⟨2, ![5, 3]⟩ .bf16) (r : Fin 7) (c : Fin 3) :
    matmul (F := Ideal) d none l rr (constant ⟨2, ![7, 3]⟩ .f32 0x00000000#32) (ix2 r c) = ∑ k : Fin 5, l (ix2 r k) * rr (ix2 k c) := by
  subst hd
  rw [matmul_zero_plain_apply' (by decide)]

end Cert.Proof.PlainDot

end
-- ==== Proof.LibKeepdims.lean ====
import Idealize.ShloMosaic.Lib.ValueIdx
import Idealize.ShloMosaic.Lib.Pipeline.Value
import Idealize.ShloMosaic.PureOps.Ideal.Laws

/-!
# A row reduction that keeps its axis, read at an index

What `jnp.sum(v, axis=-1, keepdims=True)` and its use against a matrix become inside a kernel body, each read at an
index written by its coordinates:

* the lane sum of an [n, c] array into [n] at the ideal instance: entry `r` is `∑ k, src (r, k)`;
* a vector [a] recast as a column [a, 1]: entry `(p, 0)` is entry `p`;
* a column [a, 1] broadcast to [a, b]: entry `(p, q)` is entry `(p, 0)`;
* a matrix product contracting BOTH operands on their axis 1 ([m, k] times [n, k] transposed) into the zero
  accumulator at the ideal instance: entry `(r, c)` is `∑ k, lhs (r, k) * rhs (c, k)`, for a kernel's `tpu.matmul`
  and for the host's `dot_general`.

The layout lemmas do not depend on what the entries are.
-/

noncomputable section

namespace Cert.LibKeepdims

open Idealize.ShloMosaic Idealize.ShloMosaic.ValueIdx
open scoped BigOperators

section Layout
variable {α : Type}

/-- A vector recast as a column: the same numbers in the same order. -/
theorem columnOfVector_cast_at {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h (ix2 p z) (ix1 p) (by
    have hz : z.val = 0 := by omega
    rw [Shape.rowMajor_val_two, Shape.rowMajor_val_one]
    show p.val = p.val * 1 + z.val
    omega)

/-- A column broadcast along the rows' direction: every entry of row `p` is the column's entry `p`. -/
theorem broadcastTo_a1_ab_at {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- The lane sum (a `vector.multi_reduction <add>` over axis 1 from the neutral word) at row `r`. -/
theorem laneSum_at {n c : ℕ} (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (r : Fin n) :
    multiReduction .add [1] ⟨1, ![n]⟩ src acc h hφ hacc (ix1 r) = ∑ k : Fin c, src (ix2 r k) := by
  refine (Ideal.multiReduction_add_single src acc h hφ hacc (ix1 r)).trans ?_
  refine Finset.sum_congr rfl fun k _ => congrArg src ?_
  funext d
  apply Fin.ext
  match d with
  | ⟨0, _⟩ => rfl
  | ⟨1, _⟩ => rfl

/-- The dimension numbers of a product contracting both operands on their axis 1 (`A · Bᵀ`); their conditions
    `wf` are decided on a program's literal shapes. -/
abbrev abtDot (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : ℕ} (wf : DotDims.WF ⟨2, ![M, K]⟩ ⟨2, ![N, K]⟩ ⟨2, ![M, N]⟩ [1] [1] [0] [0] [] [])

/-- At result index `(r, c)` and contraction coordinate `k` the left operand is read at `(r, k)` … -/
theorem abt_lhsIdx (r : Fin M) (c : Fin N) (k : Fin K) :
    (abtDot M K N wf).lhsIdx (ix2 r c) ((contrEquiv1 (abtDot M K N wf) K rfl rfl).symm k) = ix2 r k := by
  funext a
  refine Fin.ext ?_
  match a with
  | ⟨0, _⟩ => rfl
  | ⟨1, _⟩ => rfl

/-- … and the right operand at `(c, k)`. -/
theorem abt_rhsIdx (r : Fin M) (c : Fin N) (k : Fin K) :
    (abtDot M K N wf).rhsIdx (ix2 r c) ((contrEquiv1 (abtDot M K N wf) K rfl rfl).symm k) = ix2 c k := by
  funext a
  refine Fin.ext ?_
  match a with
  | ⟨0, _⟩ => rfl
  | ⟨1, _⟩ => rfl

/-- The contraction's sum over its index set is the sum over `k : Fin K` of `lhs (r, k) * rhs (c, k)`. -/
theorem abt_contr_sum (lhs : (⟨2, ![M, K]⟩ : Shape).Idx → EReal) (rhs : (⟨2, ![N, K]⟩ : Shape).Idx → EReal)
    (r : Fin M) (c : Fin N) :
    (∑ k : (abtDot M K N wf).contr.Idx,
        lhs ((abtDot M K N wf).lhsIdx (ix2 r c) k) * rhs ((abtDot M K N wf).rhsIdx (ix2 r c) k)) =
      ∑ k : Fin K, lhs (ix2 r k) * rhs (ix2 c k) := by
  rw [← Equiv.sum_comp (contrEquiv1 (abtDot M K N wf) K rfl rfl).symm]
  refine Finset.sum_congr rfl fun k _ => ?_
  rw [abt_lhsIdx, abt_rhsIdx]

/-- A kernel's `tpu.matmul` of this form into the zero splat, read at `(r, c)`. -/
theorem matmul_abt_zero_at {φ₁ φ₂ : FTy} (prec : Option ContractPrecision) (lhs : FVec Ideal ⟨2, ![M, K]⟩ φ₁)
    (rhs : FVec Ideal ⟨2, ![N, K]⟩ φ₂) (r : Fin M) (c : Fin N) :
    matmul (F := Ideal) (abtDot M K N wf) prec lhs rhs (constant ⟨2, ![M, N]⟩ .f32 0x00000000#32) (ix2 r c) =
      ∑ k : Fin K, lhs (ix2 r k) * rhs (ix2 c k) := by
  refine (Ideal.matmul_constant_zero_apply (abtDot M K N wf) prec lhs rhs (ix2 r c)).trans ?_
  exact abt_contr_sum wf lhs rhs r c

/-- The host's `dot_general` of this form, read at `(r, c)`. -/
theorem dotGeneral_abt_at {φ₁ φ₂ : FTy} (prec : Option ContractPrecision) (lhs : FVec Ideal ⟨2, ![M, K]⟩ φ₁)
    (rhs : FVec Ideal ⟨2, ![N, K]⟩ φ₂) (r : Fin M) (c : Fin N) :
    Host.dotGeneral (F := Ideal) (abtDot M K N wf) prec lhs rhs (ix2 r c) = ∑ k : Fin K, lhs (ix2 r k) * rhs (ix2 c k) := by
  refine (Ideal.dotGeneral_apply (abtDot M K N wf) prec .single lhs rhs (ix2 r c)).trans ?_
  exact abt_contr_sum wf lhs rhs r c

end Sums

end Cert.LibKeepdims

end
-- ==== Proof.KernelBody.lean ====
/-
  The kernel body's two stored values, read at an entry of a block of 4096 rows.

  Over a block X [4096, 64] of the state matrix and the resident operands — the transposed weights W1ᵀ [64, 256],
  W2ᵀ [256, 256], the two head matrices side by side [256, 32], and the biases as rows [1, 256], [1, 256], [1, 32] — the
  body computes three dense layers into the zero accumulator (a change of float format is the identity on extended
  reals), the first two clamped at zero:
      a1(p,j) = max (Σ_k X(p,k)·W1ᵀ(k,j) + b1(0,j)) 0,   a2(p,j) = max (Σ_k a1(p,k)·W2ᵀ(k,j) + b2(0,j)) 0,
      u(p,q)  = Σ_k a2(p,k)·Wc(k,q) + bc(0,q)                                  (q < 32).
  Columns 0..15 of u feed the mean, columns 16..31 the scale: scale(p,j) = softplus u(p, j+16) + 10⁻⁶, where the body
  writes the softplus exponent as 0 − |z − 0| and its guard as an ordered comparison (`softplus_sub_form`).
  The stored action is  (−1 + (½·(tanh u(p,j) + 1))·2) + scale(p,j)·ε(p,j);  the stored log density is
  −½·Σ_j (ε(p,j)² + 2·log scale(p,j)) − c, the lane sum over the 16 columns recast from [4096] to a column [4096, 1].
-/
import proofs.«136955_j66838281061057_2_alg».proof.Proof.Gen.KernelIdeal.Value
import proofs.«136955_j66838281061057_2_alg».proof.Proof.LibPlainDot
import proofs.«136955_j66838281061057_2_alg».proof.Proof.LibKeepdims
import proofs.«136955_j66838281061057_2_alg».proof.Proof.Spec
import Idealize.ShloMosaic.Lib.ValueLayout
import Idealize.ShloMosaic.Lib.Pipeline.Value
import Idealize.ShloMosaic.PureOps.Ideal.Laws

noncomputable section

open scoped BigOperators

namespace Cert.GaussPolicy.Block

open Cert.KernelIdeal Cert.KernelIdeal.Gen Idealize.ShloMosaic Idealize.ShloMosaic.ValueIdx Cert.GaussPolicy

/-! ## One dense layer in the body's spelling -/

/-- A product into the zero accumulator with the right operand recast to itself, plus a bias row spread down the rows,
    read at (p, q): Σ_k a(p,k)·w(k,q) + b(0,q). -/
theorem dense_at {T K B : Nat} (wf : DotDims.WF ⟨2, ![T, K]⟩ ⟨2, ![K, B]⟩ ⟨2, ![T, B]⟩ [1] [0] [0] [1] [] [])
    (a : FVec Ideal ⟨2, ![T, K]⟩ .bf16) (w : FVec Ideal ⟨2, ![K, B]⟩ .bf16) (b : FVec Ideal ⟨2, ![1, B]⟩ .f32)
    (hw : (⟨2, ![K, B]⟩ : Shape).ShapeCasts ⟨2, ![K, B]⟩) (hbb : (⟨2, ![1, B]⟩ : Shape).ShapeCasts ⟨2, ![1, B]⟩)
    (hb : (⟨2, ![1, B]⟩ : Shape).Broadcasts ⟨2, ![T, B]⟩) (p : Fin T) (q : Fin B) :
    addf (matmul (F := Ideal) (Cert.Proof.PlainDot.plainDot T K B wf) none a (shapeCast ⟨2, ![K, B]⟩ w hw)
        (constant ⟨2, ![T, B]⟩ .f32 0x00000000#32))
      (broadcastTo ⟨2, ![T, B]⟩ (shapeCast ⟨2, ![1, B]⟩ b hbb) hb) (ix2 p q)
      = (∑ k : Fin K, a (ix2 p k) * w (ix2 k q)) + b (ix2 (0 : Fin 1) q) := by
  show matmul (F := Ideal) (Cert.Proof.PlainDot.plainDot T K B wf) none a (shapeCast ⟨2, ![K, B]⟩ w hw)
        (constant ⟨2, ![T, B]⟩ .f32 0x00000000#32) (ix2 p q)
      + broadcastTo ⟨2, ![T, B]⟩ (shapeCast ⟨2, ![1, B]⟩ b hbb) hb (ix2 p q) = _
  rw [Cert.Proof.PlainDot.matmul_zero_plain_apply', shapeCast_self, shapeCast_self, broadcastTo_1b_ab_apply]

/-- The same followed by the clamp at the zero word. -/
theorem denseClamp_at {T K B : Nat} (wf : DotDims.WF ⟨2, ![T, K]⟩ ⟨2, ![K, B]⟩ ⟨2, ![T, B]⟩ [1] [0] [0] [1] [] [])
    (a : FVec Ideal ⟨2, ![T, K]⟩ .bf16) (w : FVec Ideal ⟨2, ![K, B]⟩ .bf16) (b : FVec Ideal ⟨2, ![1, B]⟩ .f32)
    (hw : (⟨2, ![K, B]⟩ : Shape).ShapeCasts ⟨2, ![K, B]⟩) (hbb : (⟨2, ![1, B]⟩ : Shape).ShapeCasts ⟨2, ![1, B]⟩)
    (hb : (⟨2, ![1, B]⟩ : Shape).Broadcasts ⟨2, ![T, B]⟩) (p : Fin T) (q : Fin B) :
    maximumf (addf (matmul (F := Ideal) (Cert.Proof.PlainDot.plainDot T K B wf) none a (shapeCast ⟨2, ![K, B]⟩ w hw)
          (constant ⟨2, ![T, B]⟩ .f32 0x00000000#32))
        (broadcastTo ⟨2, ![T, B]⟩ (shapeCast ⟨2, ![1, B]⟩ b hbb) hb))
      (broadcast ⟨2, ![T, B]⟩ (Scalar.ofBits (F := Ideal) .f32 0x00000000#32)) (ix2 p q)
      = max ((∑ k : Fin K, a (ix2 p k) * w (ix2 k q)) + b (ix2 (0 : Fin 1) q)) 0 := by
  show max (addf (matmul (F := Ideal) (Cert.Proof.PlainDot.plainDot T K B wf) none a (shapeCast ⟨2, ![K, B]⟩ w hw)
          (constant ⟨2, ![T, B]⟩ .f32 0x00000000#32))
        (broadcastTo ⟨2, ![T, B]⟩ (shapeCast ⟨2, ![1, B]⟩ b hbb) hb) (ix2 p q)) (Ideal.ofBits .f32 0x00000000#32) = _
  rw [dense_at, Ideal.ofBits_zero_f32]

/-! ## The three layers over a block -/

section Layers
variable (v0 : FVec Ideal S4096x64 .f32) (v3 : FVec Ideal S64x256 .bf16) (v6 : FVec Ideal S1x256 .f32)
  (v13 : FVec Ideal S256x256 .bf16) (v16 : FVec Ideal S1x256 .f32) (v23 : FVec Ideal S256x32 .bf16) (v26 : FVec Ideal S1x32 .f32)

/-- First clamped layer of the block at (p, j). -/
def act1 (p : Fin 4096) (j : Fin 256) : EReal :=
  max ((∑ k : Fin 64, v0 (ix2 p k) * v3 (ix2 k j)) + v6 (ix2 (0 : Fin 1) j)) 0

/-- Second clamped layer of the block at (p, j). -/
def act2 (p : Fin 4096) (j : Fin 256) : EReal :=
  max ((∑ k : Fin 256, act1 v0 v3 v6 p k * v13 (ix2 k j)) + v16 (ix2 (0 : Fin 1) j)) 0

/-- The two heads side by side, at (p, q), q < 32. -/
def heads (p : Fin 4096) (q : Fin 32) : EReal :=
  (∑ k : Fin 256, act2 v0 v3 v6 v13 v16 p k * v23 (ix2 k q)) + v26 (ix2 (0 : Fin 1) q)

/-- The body's first clamped layer as a vector. -/
def vec1 : FVec Ideal S4096x256 .f32 :=
  maximumf (addf (matmul dot_S4096x64_S64x256_S4096x256_1_0_0_1_n_n none (truncf .bf16 v0 bitsLt_bf16_f32)
      (shapeCast S64x256 v3 shapeCasts_S64x256_S64x256) (constant S4096x256 .f32 0x00000000#32))
    (broadcastTo S4096x256 (shapeCast S1x256 v6 shapeCasts_S1x256_S1x256) broadcasts_S1x256_S4096x256))
    (broadcast S4096x256 (Scalar.ofBits .f32 0x00000000#32))

/-- The body's second clamped layer as a vector. -/
def vec2 : FVec Ideal S4096x256 .f32 :=
  maximumf (addf (matmul dot_S4096x256_S256x256_S4096x256_1_0_0_1_n_n none (truncf .bf16 (vec1 v0 v3 v6) bitsLt_bf16_f32)
      (shapeCast S256x256 v13 shapeCasts_S256x256_S256x256) (constant S4096x256 .f32 0x00000000#32))
    (broadcastTo S4096x256 (shapeCast S1x256 v16 shapeCasts_S1x256_S1x256) broadcasts_S1x256_S4096x256))
    (broadcast S4096x256 (Scalar.ofBits .f32 0x00000000#32))

theorem vec1_at (p : Fin 4096) (j : Fin 256) : vec1 v0 v3 v6 (ix2 p j) = act1 v0 v3 v6 p j :=
  denseClamp_at dot_S4096x64_S64x256_S4096x256_1_0_0_1_n_n_wf (truncf .bf16 v0 bitsLt_bf16_f32) v3 v6
    shapeCasts_S64x256_S64x256 shapeCasts_S1x256_S1x256 broadcasts_S1x256_S4096x256 p j

theorem vec2_at (p : Fin 4096) (j : Fin 256) : vec2 v0 v3 v6 v13 v16 (ix2 p j) = act2 v0 v3 v6 v13 v16 p j := by
  refine (denseClamp_at dot_S4096x256_S256x256_S4096x256_1_0_0_1_n_n_wf (truncf .bf16 (vec1 v0 v3 v6) bitsLt_bf16_f32) v13 v16
    shapeCasts_S256x256_S256x256 shapeCasts_S1x256_S1x256 broadcasts_S1x256_S4096x256 p j).trans ?_
  unfold act2
  refine congrArg (fun s => max (s + v16 (ix2 (0 : Fin 1) j)) 0) (Finset.sum_congr rfl fun k _ => ?_)
  exact congrArg (· * v13 (ix2 k j)) (vec1_at v0 v3 v6 p k)

/-- The body's value %29 (both heads, [4096, 32]) is the third layer over the second. -/
theorem pay4_eq : k0_pay4 (F := Ideal) v0 v3 v6 v13 v16 v23 v26 =
    addf (matmul dot_S4096x256_S256x32_S4096x32_1_0_0_1_n_n none (truncf .bf16 (vec2 v0 v3 v6 v13 v16) bitsLt_bf16_f32)
        (shapeCast S256x32 v23 shapeCasts_S256x32_S256x32) (constant S4096x32 .f32 0x00000000#32))
      (broadcastTo S4096x32 (shapeCast S1x32 v26 shapeCasts_S1x32_S1x32) broadcasts_S1x32_S4096x32) := rfl

theorem heads_at (p : Fin 4096) (q : Fin 32) :
    k0_pay4 (F := Ideal) v0 v3 v6 v13 v16 v23 v26 (ix2 p q) = heads v0 v3 v6 v13 v16 v23 v26 p q := by
  rw [pay4_eq]
  refine (dense_at dot_S4096x256_S256x32_S4096x32_1_0_0_1_n_n_wf (truncf .bf16 (vec2 v0 v3 v6 v13 v16) bitsLt_bf16_f32) v23 v26
    shapeCasts_S256x32_S256x32 shapeCasts_S1x32_S1x32 broadcasts_S1x32_S4096x32 p q).trans ?_
  unfold heads
  refine congrArg (· + v26 (ix2 (0 : Fin 1) q)) (Finset.sum_congr rfl fun k _ => ?_)
  exact congrArg (· * v23 (ix2 k q)) (vec2_at v0 v3 v6 v13 v16 p k)

end Layers

/-! ## The stored values over a block -/

section Stores
variable (v0 : FVec Ideal S4096x64 .f32) (v3 : FVec Ideal S64x256 .bf16) (v6 : FVec Ideal S1x256 .f32)
  (v13 : FVec Ideal S256x256 .bf16) (v16 : FVec Ideal S1x256 .f32) (v23 : FVec Ideal S256x32 .bf16) (v26 : FVec Ideal S1x32 .f32)
  (v1 : FVec Ideal S4096x16 .f32)

/-- The scale over a block: softplus of the right half of the heads, plus the small constant. -/
def scaleB (p : Fin 4096) (j : Fin 16) : EReal :=
  softplus (heads v0 v3 v6 v13 v16 v23 v26 p ⟨j.val + 16, by have := j.isLt; omega⟩) + Ideal.ofBits .f32 0x358637BD#32

/-- The mean over a block: the squashed left half of the heads. -/
def meanB (p : Fin 4096) (j : Fin 16) : EReal :=
  Ideal.ofBits .f32 0xBF800000#32 +
    (Ideal.ofBits .f32 0x3F000000#32 *
        (Ideal.tanh (heads v0 v3 v6 v13 v16 v23 v26 p ⟨j.val, by have := j.isLt; omega⟩) + Ideal.ofBits .f32 0x3F800000#32))
      * Ideal.ofBits .f32 0x40000000#32

/-- The action over a block. -/
def actionB (p : Fin 4096) (j : Fin 16) : EReal :=
  meanB v0 v3 v6 v13 v16 v23 v26 p j + scaleB v0 v3 v6 v13 v16 v23 v26 p j * v1 (ix2 p j)

/-- The log density over a block. -/
def logDensityB (p : Fin 4096) : EReal :=
  Ideal.ofBits .f32 0xBF000000#32 *
      (∑ j : Fin 16, (v1 (ix2 p j) * v1 (ix2 p j)
        + Ideal.ofBits .f32 0x40000000#32 * Ideal.log (scaleB v0 v3 v6 v13 v16 v23 v26 p j)))
    - Ideal.ofBits .f32 0x416B3F8E#32

/-- The body's scale payload at (p, j): softplus in the body's spelling (exponent 0 − |z − 0|, ordered guard) of its
    operand there, plus the small constant. Every zero it splats is the zero word. -/
theorem pay1_at (v31 : FVec Ideal S4096x16 .f32) (p : Fin 4096) (j : Fin 16) :
    k0_pay1 (F := Ideal) v31 (ix2 p j) = softplus (v31 (ix2 p j)) + Ideal.ofBits .f32 0x358637BD#32 := by
  show Scalar.select
      (Ideal.cmp .one (v31 (ix2 p j) - Ideal.ofBits .f32 0x00000000#32) (v31 (ix2 p j) - Ideal.ofBits .f32 0x00000000#32))
      (v31 (ix2 p j) + Ideal.ofBits .f32 0x00000000#32)
      (max (v31 (ix2 p j)) (Ideal.ofBits .f32 0x00000000#32)
        + Ideal.log1p (Ideal.exp (Ideal.ofBits .f32 0x00000000#32
            - max (v31 (ix2 p j) - Ideal.ofBits .f32 0x00000000#32) (-(v31 (ix2 p j) - Ideal.ofBits .f32 0x00000000#32)))))
      + Ideal.ofBits .f32 0x358637BD#32 = _
  rw [Ideal.ofBits_zero_f32, softplus_sub_form]

/-- Columns 16..31 of the heads. -/
theorem pay5_at (p : Fin 4096) (j : Fin 16) :
    k0_pay5 (F := Ideal) v0 v3 v6 v13 v16 v23 v26 (ix2 p j)
      = heads v0 v3 v6 v13 v16 v23 v26 p ⟨j.val + 16, by have := j.isLt; omega⟩ := by
  show extractStridedSlice S4096x16 ![0, 16] (k0_pay4 (F := Ideal) v0 v3 v6 v13 v16 v23 v26) slices_S4096x32_o0_16_S4096x16 (ix2 p j) = _
  rw [slice2_axis1_apply 16 _ slices_S4096x32_o0_16_S4096x16 p j ⟨j.val + 16, by have := j.isLt; omega⟩
    (by show j.val + 16 = 16 + j.val; omega), heads_at]

/-- tanh of columns 0..15 of the heads, plus one. -/
theorem pay6_at (p : Fin 4096) (j : Fin 16) :
    k0_pay6 (F := Ideal) v0 v3 v6 v13 v16 v23 v26 (ix2 p j)
      = Ideal.tanh (heads v0 v3 v6 v13 v16 v23 v26 p ⟨j.val, by have := j.isLt; omega⟩) + Ideal.ofBits .f32 0x3F800000#32 := by
  show Ideal.tanh (extractStridedSlice S4096x16 ![0, 0] (k0_pay4 (F := Ideal) v0 v3 v6 v13 v16 v23 v26)
      slices_S4096x32_o0_0_S4096x16 (ix2 p j)) + Ideal.ofBits .f32 0x3F800000#32 = _
  rw [slice2_axis1_apply 0 _ slices_S4096x32_o0_0_S4096x16 p j ⟨j.val, by have := j.isLt; omega⟩
    (by show j.val = 0 + j.val; omega), heads_at]

/-- The value stored into the action block, at (p, j). -/
theorem storedAction_at (p : Fin 4096) (j : Fin 16) :
    k0_pay2 (F := Ideal) v1 (k0_pay5 v0 v3 v6 v13 v16 v23 v26) (k0_pay6 v0 v3 v6 v13 v16 v23 v26) (k0_pay7 (F := Ideal)) (ix2 p j)
      = actionB v0 v3 v6 v13 v16 v23 v26 v1 p j := by
  show (Ideal.ofBits .f32 0xBF800000#32
        + (Ideal.ofBits .f32 0x3F000000#32 * k0_pay6 (F := Ideal) v0 v3 v6 v13 v16 v23 v26 (ix2 p j)) * Ideal.ofBits .f32 0x40000000#32)
      + k0_pay1 (F := Ideal) (k0_pay5 v0 v3 v6 v13 v16 v23 v26) (ix2 p j) * v1 (ix2 p j) = _
  rw [pay1_at, pay5_at, pay6_at]
  rfl

/-- The value stored into the log-density block, at (p, 0): the lane sum over the 16 columns, recast as a column. -/
theorem storedLogDensity_at (p : Fin 4096) (z : Fin 1) :
    k0_pay3 (F := Ideal) v1 (k0_pay5 v0 v3 v6 v13 v16 v23 v26) (ix2 p z) = logDensityB v0 v3 v6 v13 v16 v23 v26 v1 p := by
  show Ideal.ofBits .f32 0xBF000000#32 *
      (shapeCast S4096x1 (multiReduction .add [1] S4096
          (addf (mulf v1 v1) (mulf (broadcast S4096x16 (Scalar.ofBits .f32 0x40000000#32))
            (log (k0_pay1 (F := Ideal) (k0_pay5 v0 v3 v6 v13 v16 v23 v26)))))
          0x00000000#32 reduces_S4096x16_S4096 (.inl rfl) rfl) shapeCasts_S4096_S4096x1 (ix2 p z))
      - Ideal.ofBits .f32 0x416B3F8E#32 = _
  rw [Cert.LibKeepdims.columnOfVector_cast_at]
  refine congrArg (fun s => Ideal.ofBits .f32 0xBF000000#32 * s - Ideal.ofBits .f32 0x416B3F8E#32) ?_
  refine (Cert.LibKeepdims.laneSum_at _ _ reduces_S4096x16_S4096 (.inl rfl) rfl p).trans ?_
  refine Finset.sum_congr rfl fun j _ => ?_
  show v1 (ix2 p j) * v1 (ix2 p j)
      + Ideal.ofBits .f32 0x40000000#32 * Ideal.log (k0_pay1 (F := Ideal) (k0_pay5 v0 v3 v6 v13 v16 v23 v26) (ix2 p j)) = _
  rw [pay1_at, pay5_at]
  rfl

end Stores

end Cert.GaussPolicy.Block

end
-- ==== Proof.Bridge.lean ====
/-
  A block of rows computes the policy head of those rows.

  If row p of a block X of the state matrix is row r of the whole matrix x, row p of the noise block is row r of the
  noise, and the resident operands are the parameter arrays re-laid — W1ᵀ(k,j) = W1(j,k), W2ᵀ(k,j) = W2(j,k), the joined
  head matrix Wc(k,j) = Wmu(j,k) and Wc(k,j+16) = Wls(j,k), the bias rows b1row(0,j) = b1(j), b2row(0,j) = b2(j),
  bc(0,j) = bmu(j), bc(0,j+16) = bls(j) — then every quantity the body computes at row p is the specification's at row r:
  the sums run over the same contracted coordinate and meet equal entries term by term. No entry needs to be finite.
-/
import proofs.«136955_j66838281061057_2_alg».proof.Proof.KernelBody

noncomputable section

open scoped BigOperators

namespace Cert.GaussPolicy.Block

open Cert.KernelIdeal Idealize.ShloMosaic Idealize.ShloMosaic.ValueIdx Cert.GaussPolicy

/-- Row p of the blocks is row r of the arrays, and the resident operands are the parameters re-laid. -/
structure Agrees (X : FVec Ideal S4096x64 .f32) (W1b : FVec Ideal S64x256 .bf16) (B1 : FVec Ideal S1x256 .f32)
    (W2b : FVec Ideal S256x256 .bf16) (B2 : FVec Ideal S1x256 .f32) (Wc : FVec Ideal S256x32 .bf16) (Bc : FVec Ideal S1x32 .f32)
    (E : FVec Ideal S4096x16 .f32)
    (x : Arr 2 ![65536, 64]) (eps : Arr 2 ![65536, 16])
    (W1 : Arr 2 ![256, 64]) (b1 : Arr 1 ![256]) (W2 : Arr 2 ![256, 256]) (b2 : Arr 1 ![256])
    (Wmu : Arr 2 ![16, 256]) (bmu : Arr 1 ![16]) (Wls : Arr 2 ![16, 256]) (bls : Arr 1 ![16])
    (p : Fin 4096) (r : Fin 65536) : Prop where
  hX : ∀ k : Fin 64, X (ix2 p k) = x (ix2 r k)
  hE : ∀ j : Fin 16, E (ix2 p j) = eps (ix2 r j)
  hW1 : ∀ (k : Fin 64) (j : Fin 256), W1b (ix2 k j) = W1 (ix2 j k)
  hB1 : ∀ j : Fin 256, B1 (ix2 (0 : Fin 1) j) = b1 (ix1 j)
  hW2 : ∀ (k : Fin 256) (j : Fin 256), W2b (ix2 k j) = W2 (ix2 j k)
  hB2 : ∀ j : Fin 256, B2 (ix2 (0 : Fin 1) j) = b2 (ix1 j)
  hWl : ∀ (k : Fin 256) (j : Fin 16) (q : Fin 32), q.val = j.val → Wc (ix2 k q) = Wmu (ix2 j k)
  hWr : ∀ (k : Fin 256) (j : Fin 16) (q : Fin 32), q.val = j.val + 16 → Wc (ix2 k q) = Wls (ix2 j k)
  hBl : ∀ (j : Fin 16) (q : Fin 32), q.val = j.val → Bc (ix2 (0 : Fin 1) q) = bmu (ix1 j)
  hBr : ∀ (j : Fin 16) (q : Fin 32), q.val = j.val + 16 → Bc (ix2 (0 : Fin 1) q) = bls (ix1 j)

section
variable {X : FVec Ideal S4096x64 .f32} {W1b : FVec Ideal S64x256 .bf16} {B1 : FVec Ideal S1x256 .f32}
  {W2b : FVec Ideal S256x256 .bf16} {B2 : FVec Ideal S1x256 .f32} {Wc : FVec Ideal S256x32 .bf16} {Bc : FVec Ideal S1x32 .f32}
  {E : FVec Ideal S4096x16 .f32}
  {x : Arr 2 ![65536, 64]} {eps : Arr 2 ![65536, 16]}
  {W1 : Arr 2 ![256, 64]} {b1 : Arr 1 ![256]} {W2 : Arr 2 ![256, 256]} {b2 : Arr 1 ![256]}
  {Wmu : Arr 2 ![16, 256]} {bmu : Arr 1 ![16]} {Wls : Arr 2 ![16, 256]} {bls : Arr 1 ![16]}
  {p : Fin 4096} {r : Fin 65536}
  (h : Agrees X W1b B1 W2b B2 Wc Bc E x eps W1 b1 W2 b2 Wmu bmu Wls bls p r)
include h

theorem act1_eq (j : Fin 256) : act1 X W1b B1 p j = hidden1 x W1 b1 r j := by
  unfold act1 hidden1
  rw [h.hB1]
  simp only [h.hX, h.hW1]

theorem act2_eq (j : Fin 256) : act2 X W1b B1 W2b B2 p j = hidden2 x W1 b1 W2 b2 r j := by
  unfold act2 hidden2
  rw [h.hB2]
  simp only [act1_eq h, h.hW2]

theorem headsLeft_eq (j : Fin 16) (q : Fin 32) (hq : q.val = j.val) :
    heads X W1b B1 W2b B2 Wc Bc p q = meanPre x W1 b1 W2 b2 Wmu bmu r j := by
  unfold heads meanPre
  rw [h.hBl j q hq]
  refine congrArg (· + bmu (ix1 j)) (Finset.sum_congr rfl fun k _ => ?_)
  rw [act2_eq h, h.hWl k j q hq]

theorem headsRight_eq (j : Fin 16) (q : Fin 32) (hq : q.val = j.val + 16) :
    heads X W1b B1 W2b B2 Wc Bc p q = scalePre x W1 b1 W2 b2 Wls bls r j := by
  unfold heads scalePre
  rw [h.hBr j q hq]
  refine congrArg (· + bls (ix1 j)) (Finset.sum_congr rfl fun k _ => ?_)
  rw [act2_eq h, h.hWr k j q hq]

theorem scaleB_eq (j : Fin 16) : scaleB X W1b B1 W2b B2 Wc Bc p j = scale x W1 b1 W2 b2 Wls bls r j := by
  unfold scaleB scale
  rw [headsRight_eq h j _ rfl]

theorem meanB_eq (j : Fin 16) : meanB X W1b B1 W2b B2 Wc Bc p j = mean x W1 b1 W2 b2 Wmu bmu r j := by
  unfold meanB mean
  rw [headsLeft_eq h j _ rfl]

theorem actionB_eq (j : Fin 16) :
    actionB X W1b B1 W2b B2 Wc Bc E p j = action x eps W1 b1 W2 b2 Wmu bmu Wls bls r j := by
  unfold actionB action
  rw [meanB_eq h, scaleB_eq h, h.hE]

theorem logDensityB_eq :
    logDensityB X W1b B1 W2b B2 Wc Bc E p = logDensity x eps W1 b1 W2 b2 Wls bls r := by
  unfold logDensityB logDensity
  simp only [scaleB_eq h, h.hE]

end

end Cert.GaussPolicy.Block

end
-- ==== Proof.Operands.lean ====
/-
  The resident operands as the kernel's region finds them, read at an entry.

  Before the region the program transposes each weight matrix (and narrows it to bf16: the identity on extended reals),
  sets the two head matrices side by side along the columns, recasts each hidden bias [256] as a row [1, 256], and
  joins the two head biases end to end before recasting them as a row [1, 32]. So at an entry:
      W1ᵀ(k,j) = W1(j,k),   W2ᵀ(k,j) = W2(j,k),   Wc(k,j) = Wmu(j,k),   Wc(k,j+16) = Wls(j,k)      (j < 16),
      b1row(0,j) = b1(j),   b2row(0,j) = b2(j),   bc(0,j) = bmu(j),      bc(0,j+16) = bls(j)       (j < 16).
-/
import proofs.«136955_j66838281061057_2_alg».proof.Proof.Gen.KernelIdeal.Value
import Idealize.ShloMosaic.Lib.ValueLayout
import Idealize.ShloMosaic.Lib.Pipeline.Value
import Idealize.ShloMosaic.Lib.StableHlo.Run

noncomputable section

namespace Cert.GaussPolicy.Operands

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (c : Dev nD)

/-! ## The arrays, as terms of the arguments -/

theorem w1T_eq : (V m c main_v1 : S64x256.Idx → EReal) =
    truncf (F := Ideal) .bf16 (transpose S64x256 [1, 0] (m ((c : Thread nD τ).loc main_arg2)) transposes_S256x64_S64x256_1_0) bitsLt_bf16_f32 := by
  dsimp only [Gen.V, Gen.hostOps0]; after_results

theorem w2T_eq : (V m c main_v3 : S256x256.Idx → EReal) =
    truncf (F := Ideal) .bf16 (transpose S256x256 [1, 0] (m ((c : Thread nD τ).loc main_arg4)) transposes_S256x256_S256x256_1_0) bitsLt_bf16_f32 := by
  dsimp only [Gen.V, Gen.hostOps0]; after_results

theorem wc_eq : (V m c main_v7 : S256x32.Idx → EReal) =
    truncf (F := Ideal) .bf16 (concatenate S256x32 1
      [⟨S256x16, transpose S256x16 [1, 0] (m ((c : Thread nD τ).loc main_arg6)) transposes_S16x256_S256x16_1_0⟩,
       ⟨S256x16, transpose S256x16 [1, 0] (m ((c : Thread nD τ).loc main_arg8)) transposes_S16x256_S256x16_1_0⟩]
      concatenates_S256x16_S256x16_S256x32_d1) bitsLt_bf16_f32 := by
  dsimp only [Gen.V, Gen.hostOps0]; after_results

theorem b1row_eq : (V m c main_v8 : S1x256.Idx → EReal) =
    shapeCast S1x256 (m ((c : Thread nD τ).loc main_arg3)) shapeCasts_S256_S1x256 := by
  dsimp only [Gen.V, Gen.hostOps0]; after_results; rfl

theorem b2row_eq : (V m c main_v9 : S1x256.Idx → EReal) =
    shapeCast S1x256 (m ((c : Thread nD τ).loc main_arg5)) shapeCasts_S256_S1x256 := by
  dsimp only [Gen.V, Gen.hostOps0]; after_results; rfl

theorem bc_eq : (V m c main_v11 : S1x32.Idx → EReal) =
    shapeCast S1x32 (concatenate S32 0 [⟨S16, m ((c : Thread nD τ).loc main_arg7)⟩, ⟨S16, m ((c : Thread nD τ).loc main_arg9)⟩]
      concatenates_S16_S16_S32_d0) shapeCasts_S32_S1x32 := by
  dsimp only [Gen.V, Gen.hostOps0]; after_results; rfl

/-! ## At an entry -/

theorem w1T_at (k : Fin 64) (j : Fin 256) :
    (V m c main_v1 : S64x256.Idx → EReal) (ix2 k j) = (m ((c : Thread nD τ).loc main_arg2) : S256x64.Idx → EReal) (ix2 j k) := by
  rw [w1T_eq]
  exact transpose_ix2_apply _ transposes_S256x64_S64x256_1_0 k j

theorem w2T_at (k : Fin 256) (j : Fin 256) :
    (V m c main_v3 : S256x256.Idx → EReal) (ix2 k j) = (m ((c : Thread nD τ).loc main_arg4) : S256x256.Idx → EReal) (ix2 j k) := by
  rw [w2T_eq]
  exact transpose_ix2_apply _ transposes_S256x256_S256x256_1_0 k j

/-- The left half of the joined head matrix is the transposed mean head. -/
theorem wc_left_at (k : Fin 256) (j : Fin 16) (q : Fin 32) (hq : q.val = j.val) :
    (V m c main_v7 : S256x32.Idx → EReal) (ix2 k q) = (m ((c : Thread nD τ).loc main_arg6) : S16x256.Idx → EReal) (ix2 j k) := by
  rw [wc_eq]
  refine (concatenate_pair_apply_left (t := S256x32) (s₁ := S256x16) (s₂ := S256x16) (1 : Fin 2) _ _
    concatenates_S256x16_S256x16_S256x32_d1 (ix2 k q) rfl (ix2 k j) (fun b => ?_)).trans ?_
  · match b with
    | ⟨0, _⟩ => rfl
    | ⟨1, _⟩ => exact hq.symm
  · exact transpose_ix2_apply _ transposes_S16x256_S256x16_1_0 k j

/-- The right half is the transposed scale head. -/
theorem wc_right_at (k : Fin 256) (j : Fin 16) (q : Fin 32) (hq : q.val = j.val + 16) :
    (V m c main_v7 : S256x32.Idx → EReal) (ix2 k q) = (m ((c : Thread nD τ).loc main_arg8) : S16x256.Idx → EReal) (ix2 j k) := by
  rw [wc_eq]
  refine (concatenate_pair_apply_right (t := S256x32) (s₁ := S256x16) (s₂ := S256x16) (1 : Fin 2) _ _
    concatenates_S256x16_S256x16_S256x32_d1 (ix2 k q) rfl rfl (ix2 k j) (fun b hb => ?_) ?_).trans ?_
  · match b with
    | ⟨0, _⟩ => rfl
    | ⟨1, _⟩ => exact absurd rfl hb
  · exact hq.symm
  · exact transpose_ix2_apply _ transposes_S16x256_S256x16_1_0 k j

theorem b1row_at (u : Fin 1) (j : Fin 256) :
    (V m c main_v8 : S1x256.Idx → EReal) (ix2 u j) = (m ((c : Thread nD τ).loc main_arg3) : S256.Idx → EReal) (ix1 j) := by
  rw [b1row_eq]
  exact shapeCast_a_1a_apply _ shapeCasts_S256_S1x256 u j

theorem b2row_at (u : Fin 1) (j : Fin 256) :
    (V m c main_v9 : S1x256.Idx → EReal) (ix2 u j) = (m ((c : Thread nD τ).loc main_arg5) : S256.Idx → EReal) (ix1 j) := by
  rw [b2row_eq]
  exact shapeCast_a_1a_apply _ shapeCasts_S256_S1x256 u j

theorem bc_left_at (u : Fin 1) (j : Fin 16) (q : Fin 32) (hq : q.val = j.val) :
    (V m c main_v11 : S1x32.Idx → EReal) (ix2 u q) = (m ((c : Thread nD τ).loc main_arg7) : S16.Idx → EReal) (ix1 j) := by
  rw [bc_eq]
  refine (shapeCast_a_1a_apply _ shapeCasts_S32_S1x32 u q).trans ?_
  refine concatenate_pair_apply_left (t := S32) (s₁ := S16) (s₂ := S16) (0 : Fin 1) _ _
    concatenates_S16_S16_S32_d0 (ix1 q) rfl (ix1 j) (fun b => ?_)
  match b with
  | ⟨0, _⟩ => exact hq.symm

theorem bc_right_at (u : Fin 1) (j : Fin 16) (q : Fin 32) (hq : q.val = j.val + 16) :
    (V m c main_v11 : S1x32.Idx → EReal) (ix2 u q) = (m ((c : Thread nD τ).loc main_arg9) : S16.Idx → EReal) (ix1 j) := by
  rw [bc_eq]
  refine (shapeCast_a_1a_apply _ shapeCasts_S32_S1x32 u q).trans ?_
  refine concatenate_pair_apply_right (t := S32) (s₁ := S16) (s₂ := S16) (0 : Fin 1) _ _
    concatenates_S16_S16_S32_d0 (ix1 q) rfl rfl (ix1 j) (fun b hb => ?_) ?_
  · match b with
    | ⟨0, _⟩ => exact absurd rfl hb
  · exact hq.symm

end Cert.GaussPolicy.Operands

end
-- ==== Proof.Blocks.lean ====
/-
  From blocks of 4096 rows to the two whole arrays.

  The grid has 16 points; point t stages rows 4096·t .. 4096·t + 4095 of the state matrix and of the noise, the whole of
  every resident operand, and writes back rows 4096·t .. 4096·t + 4095 of the action array [65536, 16] and of the
  log-density column [65536, 1]. What point t writes back is block t of the specification's arrays (the body computes
  the policy head of its rows); the 16 blocks tile the 65536 rows, so each output array ends as the specification's.
-/
import proofs.«136955_j66838281061057_2_alg».proof.Proof.Bridge
import proofs.«136955_j66838281061057_2_alg».proof.Proof.Operands

set_option maxRecDepth 16384

noncomputable section

namespace Cert.GaussPolicy.Blocks

open Cert.KernelIdeal Cert.KernelIdeal.Gen Idealize.ShloMosaic Idealize.ShloMosaic.TcCoe Idealize.ShloMosaic.ValueIdx
open Idealize.SL.Sem Cert.GaussPolicy
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 16 grid points: the row-blocked windows sit at block t, the resident ones at 0. -/
theorem idx_facts : ∀ t : Fin cfg0.N,
    t.val ≤ 15
    ∧ win0_8.index t (0 : Fin 2) = t.val ∧ win0_8.index t (1 : Fin 2) = 0
    ∧ win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every block of rows is some point's. -/
theorem idx_onto : ∀ q : Fin 16, ∃ t : Fin cfg0.N, t.val = q.val :=
  (by decide +kernel : ∀ q : Fin 16, ∃ t : Fin grid0.N, t.val = q.val)

/-- Row p of point t's block is row 4096·t + p of the arrays. -/
def row (t : Fin cfg0.N) (p : Fin 4096) : Fin 65536 :=
  ⟨t.val * 4096 + p.val, by have := (idx_facts t).1; have := p.isLt; omega⟩

/-! ## Where a block's entry sits in its array -/

theorem emb0 (t : Fin cfg0.N) (p : Fin 4096) (k : Fin 64) : ((cfg0.win 0).blk t).view.emb (ix2 p k) = ix2 (row t p) k := by
  have e := idx_facts t
  funext a; apply Fin.ext
  match a with
  | ⟨0, _⟩ => show win0_0.index t (0 : Fin 2) * 4096 + 1 * p.val = t.val * 4096 + p.val; omega
  | ⟨1, _⟩ => show win0_0.index t (1 : Fin 2) * 64 + 1 * k.val = k.val; omega

theorem emb1 (t : Fin cfg0.N) (p : Fin 4096) (j : Fin 16) : ((cfg0.win 1).blk t).view.emb (ix2 p j) = ix2 (row t p) j := by
  have e := idx_facts t
  funext a; apply Fin.ext
  match a with
  | ⟨0, _⟩ => show win0_1.index t (0 : Fin 2) * 4096 + 1 * p.val = t.val * 4096 + p.val; omega
  | ⟨1, _⟩ => show win0_1.index t (1 : Fin 2) * 16 + 1 * j.val = j.val; omega

theorem emb8 (t : Fin cfg0.N) (p : Fin 4096) (j : Fin 16) : ((cfg0.win 8).blk t).view.emb (ix2 p j) = ix2 (row t p) j := by
  have e := idx_facts t
  funext a; apply Fin.ext
  match a with
  | ⟨0, _⟩ => show win0_8.index t (0 : Fin 2) * 4096 + 1 * p.val = t.val * 4096 + p.val; omega
  | ⟨1, _⟩ => show win0_8.index t (1 : Fin 2) * 16 + 1 * j.val = j.val; omega

theorem emb9 (t : Fin cfg0.N) (p : Fin 4096) (z : Fin 1) : ((cfg0.win 9).blk t).view.emb (ix2 p z) = ix2 (row t p) z := by
  have e := idx_facts t
  funext a; apply Fin.ext
  match a with
  | ⟨0, _⟩ => show win0_9.index t (0 : Fin 2) * 4096 + 1 * p.val = t.val * 4096 + p.val; omega
  | ⟨1, _⟩ => show win0_9.index t (1 : Fin 2) * 1 + 1 * z.val = z.val; omega

theorem emb2 (t : Fin cfg0.N) (k : Fin 64) (j : Fin 256) : ((cfg0.win 2).blk t).view.emb (ix2 k j) = ix2 k j := by
  have e := idx_facts t
  funext a; apply Fin.ext
  match a with
  | ⟨0, _⟩ => show win0_2.index t (0 : Fin 2) * 64 + 1 * k.val = k.val; omega
  | ⟨1, _⟩ => show win0_2.index t (1 : Fin 2) * 256 + 1 * j.val = j.val; omega

theorem emb3 (t : Fin cfg0.N) (k : Fin 1) (j : Fin 256) : ((cfg0.win 3).blk t).view.emb (ix2 k j) = ix2 k j := by
  have e := idx_facts t
  funext a; apply Fin.ext
  match a with
  | ⟨0, _⟩ => show win0_3.index t (0 : Fin 2) * 1 + 1 * k.val = k.val; omega
  | ⟨1, _⟩ => show win0_3.index t (1 : Fin 2) * 256 + 1 * j.val = j.val; omega

theorem emb4 (t : Fin cfg0.N) (k : Fin 256) (j : Fin 256) : ((cfg0.win 4).blk t).view.emb (ix2 k j) = ix2 k j := by
  have e := idx_facts t
  funext a; apply Fin.ext
  match a with
  | ⟨0, _⟩ => show win0_4.index t (0 : Fin 2) * 256 + 1 * k.val = k.val; omega
  | ⟨1, _⟩ => show win0_4.index t (1 : Fin 2) * 256 + 1 * j.val = j.val; omega

theorem emb5 (t : Fin cfg0.N) (k : Fin 1) (j : Fin 256) : ((cfg0.win 5).blk t).view.emb (ix2 k j) = ix2 k j := by
  have e := idx_facts t
  funext a; apply Fin.ext
  match a with
  | ⟨0, _⟩ => show win0_5.index t (0 : Fin 2) * 1 + 1 * k.val = k.val; omega
  | ⟨1, _⟩ => show win0_5.index t (1 : Fin 2) * 256 + 1 * j.val = j.val; omega

theorem emb6 (t : Fin cfg0.N) (k : Fin 256) (j : Fin 32) : ((cfg0.win 6).blk t).view.emb (ix2 k j) = ix2 k j := by
  have e := idx_facts t
  funext a; apply Fin.ext
  match a with
  | ⟨0, _⟩ => show win0_6.index t (0 : Fin 2) * 256 + 1 * k.val = k.val; omega
  | ⟨1, _⟩ => show win0_6.index t (1 : Fin 2) * 32 + 1 * j.val = j.val; omega

theorem emb7 (t : Fin cfg0.N) (k : Fin 1) (j : Fin 32) : ((cfg0.win 7).blk t).view.emb (ix2 k j) = ix2 k j := by
  have e := idx_facts t
  funext a; apply Fin.ext
  match a with
  | ⟨0, _⟩ => show win0_7.index t (0 : Fin 2) * 1 + 1 * k.val = k.val; omega
  | ⟨1, _⟩ => show win0_7.index t (1 : Fin 2) * 32 + 1 * j.val = j.val; omega

/-! ## The blocks' entries, from the argument arrays -/

theorem xblk_at (c : Dev nD) (t : Fin cfg0.N) (p : Fin 4096) (k : Fin 64) :
    iblk m c 0 t (ix2 p k) = (m ((c : Thread nD τ).loc main_arg0)) (ix2 (row t p) k) := by
  show V m c main_arg0 (((cfg0.win 0).blk t).view.emb (ix2 p k)) = _
  rw [emb0, V_main_arg0]

theorem eblk_at (c : Dev nD) (t : Fin cfg0.N) (p : Fin 4096) (j : Fin 16) :
    iblk m c 1 t (ix2 p j) = (m ((c : Thread nD τ).loc main_arg1)) (ix2 (row t p) j) := by
  show V m c main_arg1 (((cfg0.win 1).blk t).view.emb (ix2 p j)) = _
  rw [emb1, V_main_arg1]

theorem w1blk_at (c : Dev nD) (t : Fin cfg0.N) (k : Fin 64) (j : Fin 256) :
    iblk m c 2 t (ix2 k j) = (m ((c : Thread nD τ).loc main_arg2)) (ix2 j k) := by
  show V m c main_v1 (((cfg0.win 2).blk t).view.emb (ix2 k j)) = _
  rw [emb2]
  exact Operands.w1T_at m c k j

theorem b1blk_at (c : Dev nD) (t : Fin cfg0.N) (j : Fin 256) :
    iblk m c 3 t (ix2 (0 : Fin 1) j) = (m ((c : Thread nD τ).loc main_arg3)) (ix1 j) := by
  show V m c main_v8 (((cfg0.win 3).blk t).view.emb (ix2 (0 : Fin 1) j)) = _
  rw [emb3]
  exact Operands.b1row_at m c 0 j

theorem w2blk_at (c : Dev nD) (t : Fin cfg0.N) (k : Fin 256) (j : Fin 256) :
    iblk m c 4 t (ix2 k j) = (m ((c : Thread nD τ).loc main_arg4)) (ix2 j k) := by
  show V m c main_v3 (((cfg0.win 4).blk t).view.emb (ix2 k j)) = _
  rw [emb4]
  exact Operands.w2T_at m c k j

theorem b2blk_at (c : Dev nD) (t : Fin cfg0.N) (j : Fin 256) :
    iblk m c 5 t (ix2 (0 : Fin 1) j) = (m ((c : Thread nD τ).loc main_arg5)) (ix1 j) := by
  show V m c main_v9 (((cfg0.win 5).blk t).view.emb (ix2 (0 : Fin 1) j)) = _
  rw [emb5]
  exact Operands.b2row_at m c 0 j

theorem wcblk_left_at (c : Dev nD) (t : Fin cfg0.N) (k : Fin 256) (j : Fin 16) (q : Fin 32) (hq : q.val = j.val) :
    iblk m c 6 t (ix2 k q) = (m ((c : Thread nD τ).loc main_arg6)) (ix2 j k) := by
  show V m c main_v7 (((cfg0.win 6).blk t).view.emb (ix2 k q)) = _
  rw [emb6]
  exact Operands.wc_left_at m c k j q hq

theorem wcblk_right_at (c : Dev nD) (t : Fin cfg0.N) (k : Fin 256) (j : Fin 16) (q : Fin 32) (hq : q.val = j.val + 16) :
    iblk m c 6 t (ix2 k q) = (m ((c : Thread nD τ).loc main_arg8)) (ix2 j k) := by
  show V m c main_v7 (((cfg0.win 6).blk t).view.emb (ix2 k q)) = _
  rw [emb6]
  exact Operands.wc_right_at m c k j q hq

theorem bcblk_left_at (c : Dev nD) (t : Fin cfg0.N) (j : Fin 16) (q : Fin 32) (hq : q.val = j.val) :
    iblk m c 7 t (ix2 (0 : Fin 1) q) = (m ((c : Thread nD τ).loc main_arg7)) (ix1 j) := by
  show V m c main_v11 (((cfg0.win 7).blk t).view.emb (ix2 (0 : Fin 1) q)) = _
  rw [emb7]
  exact Operands.bc_left_at m c 0 j q hq

theorem bcblk_right_at (c : Dev nD) (t : Fin cfg0.N) (j : Fin 16) (q : Fin 32) (hq : q.val = j.val + 16) :
    iblk m c 7 t (ix2 (0 : Fin 1) q) = (m ((c : Thread nD τ).loc main_arg9)) (ix1 j) := by
  show V m c main_v11 (((cfg0.win 7).blk t).view.emb (ix2 (0 : Fin 1) q)) = _
  rw [emb7]
  exact Operands.bc_right_at m c 0 j q hq

/-- Point t's blocks at row p agree with the argument arrays at row 4096·t + p. -/
theorem agrees (c : Dev nD) (t : Fin cfg0.N) (p : Fin 4096) :
    Block.Agrees (iblk m c 0 t) (iblk m c 2 t) (iblk m c 3 t) (iblk m c 4 t) (iblk m c 5 t) (iblk m c 6 t) (iblk m c 7 t) (iblk m c 1 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) p (row t p) where
  hX := xblk_at m c t p
  hE := eblk_at m c t p
  hW1 := w1blk_at m c t
  hB1 := b1blk_at m c t
  hW2 := w2blk_at m c t
  hB2 := b2blk_at m c t
  hWl := wcblk_left_at m c t
  hWr := wcblk_right_at m c t
  hBl := bcblk_left_at m c t
  hBr := bcblk_right_at m c t

/-! ## What a point writes back -/

/-- Point t writes back block t of the action array. -/
theorem flushed8_eq (c : Dev nD) (t : Fin cfg0.N) :
    (dats m 0 c).flushed 8 t = ((cfg0.win 8).blk t).view.read (Elt Ideal) (actionArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show (cfg0.win 8).cut (grid0.coords t) ((dats m 0 c).after 8 t) = _
  rw [after0_8]
  unfold out0_8
  rw [View.canon_unit_zero hz]
  simp only [View.ld_unit_zero (S := S4096x64) hz, View.ld_unit_zero (S := S4096x16) hz, View.ld_unit_zero (S := S64x256) hz,
    View.ld_unit_zero (S := S1x256) hz, View.ld_unit_zero (S := S256x256) hz, View.ld_unit_zero (S := S256x32) hz,
    View.ld_unit_zero (S := S1x32) hz]
  funext y
  obtain ⟨p, j, rfl⟩ : ∃ (p : Fin 4096) (j : Fin 16), y = ix2 p j := ⟨y 0, y 1, eq_ix2 y⟩
  show k0_pay2 (F := Ideal) (iblk m c 1 t) (k0_pay5 (iblk m c 0 t) (iblk m c 2 t) (iblk m c 3 t) (iblk m c 4 t) (iblk m c 5 t) (iblk m c 6 t) (iblk m c 7 t)) (k0_pay6 (iblk m c 0 t) (iblk m c 2 t) (iblk m c 3 t) (iblk m c 4 t) (iblk m c 5 t) (iblk m c 6 t) (iblk m c 7 t)) (k0_pay7 (F := Ideal)) (ix2 p j)
      = actionArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 8).blk t).view.emb (ix2 p j))
  rw [emb8]
  refine (Block.storedAction_at (iblk m c 0 t) (iblk m c 2 t) (iblk m c 3 t) (iblk m c 4 t) (iblk m c 5 t) (iblk m c 6 t) (iblk m c 7 t) (iblk m c 1 t) p j).trans ?_
  exact Block.actionB_eq (agrees m c t p) j

/-- Point t writes back block t of the log-density column. -/
theorem flushed9_eq (c : Dev nD) (t : Fin cfg0.N) :
    (dats m 0 c).flushed 9 t = ((cfg0.win 9).blk t).view.read (Elt Ideal) (logDensityArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))) := by
  show (cfg0.win 9).cut (grid0.coords t) ((dats m 0 c).after 9 t) = _
  rw [after0_9]
  unfold out0_9
  rw [View.canon_unit_zero hz]
  simp only [View.ld_unit_zero (S := S4096x64) hz, View.ld_unit_zero (S := S4096x16) hz, View.ld_unit_zero (S := S64x256) hz,
    View.ld_unit_zero (S := S1x256) hz, View.ld_unit_zero (S := S256x256) hz, View.ld_unit_zero (S := S256x32) hz,
    View.ld_unit_zero (S := S1x32) hz]
  funext y
  obtain ⟨p, z, rfl⟩ : ∃ (p : Fin 4096) (z : Fin 1), y = ix2 p z := ⟨y 0, y 1, eq_ix2 y⟩
  show k0_pay3 (F := Ideal) (iblk m c 1 t) (k0_pay5 (iblk m c 0 t) (iblk m c 2 t) (iblk m c 3 t) (iblk m c 4 t) (iblk m c 5 t) (iblk m c 6 t) (iblk m c 7 t)) (ix2 p z)
      = logDensityArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (((cfg0.win 9).blk t).view.emb (ix2 p z))
  rw [emb9]
  refine (Block.storedLogDensity_at (iblk m c 0 t) (iblk m c 2 t) (iblk m c 3 t) (iblk m c 4 t) (iblk m c 5 t) (iblk m c 6 t) (iblk m c 7 t) (iblk m c 1 t) p z).trans ?_
  exact Block.logDensityB_eq (agrees m c t p)

/-! ## The blocks tile the rows -/

theorem mem_blk8 (t : Fin cfg0.N) (i : S65536x16.Idx) :
    i ∈ ((cfg0.win 8).blk t).view.set ↔ ∀ a : Fin 2, win0_8.index t a * S4096x16.size a ≤ (i a).val ∧ (i a).val < win0_8.index t a * S4096x16.size a + S4096x16.size a := by
  show i ∈ ((View.whole main_v12_0).slice (win0_8.rect t)).set ↔ _
  rw [View.set_slice_whole, Rect.mem_set_unit]
  exact Iff.rfl

theorem mem_blk9 (t : Fin cfg0.N) (i : S65536x1.Idx) :
    i ∈ ((cfg0.win 9).blk t).view.set ↔ ∀ a : Fin 2, win0_9.index t a * S4096x1.size a ≤ (i a).val ∧ (i a).val < win0_9.index t a * S4096x1.size a + S4096x1.size a := by
  show i ∈ ((View.whole main_v12_1).slice (win0_9.rect t)).set ↔ _
  rw [View.set_slice_whole, Rect.mem_set_unit]
  exact Iff.rfl

/-- Row r lies in the block of point r / 4096. -/
theorem cover8 (i : S65536x16.Idx) : ∃ t : Fin cfg0.N, (cfg0.win 8).flush t = true ∧ i ∈ ((cfg0.win 8).blk t).view.set := by
  have hi0 : (i 0).val < 65536 := (i 0).isLt
  have hi1 : (i 1).val < 16 := (i 1).isLt
  obtain ⟨t, ht⟩ := idx_onto ⟨(i 0).val / 4096, by omega⟩
  have ht' : t.val = (i 0).val / 4096 := ht
  have e := idx_facts t
  refine ⟨t, flush0_8 t, ?_⟩
  rw [mem_blk8]
  intro a
  match a with
  | ⟨0, _⟩ => show win0_8.index t (0 : Fin 2) * 4096 ≤ (i 0).val ∧ (i 0).val < win0_8.index t (0 : Fin 2) * 4096 + 4096; omega
  | ⟨1, _⟩ => show win0_8.index t (1 : Fin 2) * 16 ≤ (i 1).val ∧ (i 1).val < win0_8.index t (1 : Fin 2) * 16 + 16; omega

theorem cover9 (i : S65536x1.Idx) : ∃ t : Fin cfg0.N, (cfg0.win 9).flush t = true ∧ i ∈ ((cfg0.win 9).blk t).view.set := by
  have hi0 : (i 0).val < 65536 := (i 0).isLt
  have hi1 : (i 1).val < 1 := (i 1).isLt
  obtain ⟨t, ht⟩ := idx_onto ⟨(i 0).val / 4096, by omega⟩
  have ht' : t.val = (i 0).val / 4096 := ht
  have e := idx_facts t
  refine ⟨t, flush0_9 t, ?_⟩
  rw [mem_blk9]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 1 ≤ (i 1).val ∧ (i 1).val < win0_9.index t (1 : Fin 2) * 1 + 1; omega

/-! ## The arrays after the run -/

theorem final8 (c : Dev nD) : (dats m 0 c).arrAt 8 cfg0.N = actionArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 8 _ (fun t _ => flushed8_eq m c t) cover8

theorem final9 (c : Dev nD) : (dats m 0 c).arrAt 9 cfg0.N = logDensityArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) :=
  (dats m 0 c).arrAt_eq_of_cover 9 _ (fun t _ => flushed9_eq m c t) cover9

/-- The kernel program's run: the two result arrays end as the specification's functions of the arguments, and the
    arguments end unchanged. -/
theorem run : θ_run defs (onTc (τ := τ) (main (F := Ideal))) ⟨m, fun _ => 0, ρ⟩ fun r => ∀ c : Dev nD,
      r.2.mem ((c : Thread nD τ).loc main_v12_0) = actionArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v12_1) = logDensityArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final8 m c), (h c).2.1.trans (final9 m c), (h c).2.2⟩)
    (Cert.KernelIdeal.Value.run_blocks m ρ)

end Cert.GaussPolicy.Blocks

end
-- ==== Proof.lean ====
/-
  A Gaussian policy head: the row-blocked kernel against the whole-array reference, on the extended reals.

  Both programs take a state matrix x [65536, 64], noise ε [65536, 16] and the parameters of a two-hidden-layer network
  with a mean head and a scale head, and return the sampled action  mean + scale·ε  [65536, 16] and its log density
  −½·Σ_j (ε² + 2·log scale) − 8·log 2π  as a column [65536, 1]; `Cert.GaussPolicy` (Proof/Spec.lean) states both as one
  function of the arguments.

  * The reference computes that function stage by stage over whole arrays (Proof/RefRead.lean, over its generated run).
  * The kernel transposes the weights, joins the two heads into one matrix, and walks 16 blocks of 4096 rows; each block's
    body computes the same function of its rows (Proof/KernelBody.lean, Proof/Bridge.lean, Proof/Operands.lean), and the
    blocks tile the rows (Proof/Blocks.lean).
  The two agree because a product into a zero accumulator, a host contraction, a lane sum and a host sum are the same
  finite sums on the extended reals, a change of float format is the identity there, the joined heads are read back where
  they were put, the softplus exponent 0 − |z| is −|z|, and every float constant is the same word on both sides. No law
  used needs a finite entry, so the precondition is not opened. The idealization rewrote nothing, so `preserves` is `True`.
-/
import proofs.«136955_j66838281061057_2_alg».proof.Defs
import proofs.«136955_j66838281061057_2_alg».proof.Proof.Gen.Kernel
import proofs.«136955_j66838281061057_2_alg».proof.Proof.Gen.Kernel.Skeleton
import proofs.«136955_j66838281061057_2_alg».proof.Proof.Gen.Kernel.Launch
import proofs.«136955_j66838281061057_2_alg».proof.Proof.Gen.Kernel.Points
import proofs.«136955_j66838281061057_2_alg».proof.Proof.Gen.Kernel.Frame
import proofs.«136955_j66838281061057_2_alg».proof.Proof.Gen.KernelIdeal
import proofs.«136955_j66838281061057_2_alg».proof.Proof.Gen.KernelIdeal.Skeleton
import proofs.«136955_j66838281061057_2_alg».proof.Proof.Gen.KernelIdeal.Launch
import proofs.«136955_j66838281061057_2_alg».proof.Proof.Gen.KernelIdeal.Points
import proofs.«136955_j66838281061057_2_alg».proof.Proof.Gen.KernelIdeal.Frame
import proofs.«136955_j66838281061057_2_alg».proof.Proof.Gen.ReferenceIdeal
import proofs.«136955_j66838281061057_2_alg».proof.Proof.Gen.Pre_finite_inputs
import proofs.«136955_j66838281061057_2_alg».proof.Proof.Gen.KernelIdeal.Value
import proofs.«136955_j66838281061057_2_alg».proof.Proof.Gen.ReferenceIdeal.Run
import proofs.«136955_j66838281061057_2_alg».proof.Proof.Gen.ReferenceIdeal.Read
import proofs.«136955_j66838281061057_2_alg».proof.Proof.RefRead
import proofs.«136955_j66838281061057_2_alg».proof.Proof.Blocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the action array and the log-density column of `Cert.GaussPolicy` at the arguments. -/
theorem algebraic : Cert.algebraic_KernelIdeal_ReferenceIdeal := by
  intro m ρ m' ρ' _ hagree
  refine ⟨_, _, Cert.GaussPolicy.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9⟩ := hagree c
    rw [Cert.ReferenceIdeal.Read.val_main_v35_eq, Cert.GaussPolicy.Ref.actionArr_eq, e0, e1, e2, e3, e4, e5, e6, e7, e8, e9]
  · obtain ⟨e0, e1, e2, e3, e4, e5, e6, e7, e8, e9⟩ := hagree c
    rw [Cert.ReferenceIdeal.Read.val_main_v46_eq, Cert.GaussPolicy.Ref.logDensityArr_eq, e0, e1, e2, e3, e4, e5, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
